-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x784 : Shape := ⟨3, ![64, 512, 784]⟩
abbrev S600x784 : Shape := ⟨2, ![600, 784]⟩
abbrev S600 : Shape := ⟨1, ![600]⟩
abbrev S64x600 : Shape := ⟨2, ![64, 600]⟩
abbrev S64 : Shape := ⟨1, ![64]⟩
abbrev S600x600 : Shape := ⟨2, ![600, 600]⟩
abbrev S200x600 : Shape := ⟨2, ![200, 600]⟩
abbrev S200 : Shape := ⟨1, ![200]⟩
abbrev S10x200 : Shape := ⟨2, ![10, 200]⟩
abbrev S10 : Shape := ⟨1, ![10]⟩
abbrev S_ : Shape := ⟨0, ![]⟩

class Facts : Prop where
  bcast_S_S64x512x784 : S_.BroadcastsInDim S64x512x784 (![] : Fin 0 → Fin S64x512x784.rank)
  reducesTo_S64x512x784_S_d0_1_2 : S64x512x784.ReducesTo [0, 1, 2] S_
  h_S_ : 0 < S_.numel
  bcast_S_S600x784 : S_.BroadcastsInDim S600x784 (![] : Fin 0 → Fin S600x784.rank)
  reducesTo_S600x784_S_d0_1 : S600x784.ReducesTo [0, 1] S_
  bcast_S_S600 : S_.BroadcastsInDim S600 (![] : Fin 0 → Fin S600.rank)
  reducesTo_S600_S_d0 : S600.ReducesTo [0] S_
  bcast_S_S64x600 : S_.BroadcastsInDim S64x600 (![] : Fin 0 → Fin S64x600.rank)
  reducesTo_S64x600_S_d0_1 : S64x600.ReducesTo [0, 1] S_
  bcast_S_S64 : S_.BroadcastsInDim S64 (![] : Fin 0 → Fin S64.rank)
  reducesTo_S64_S_d0 : S64.ReducesTo [0] S_
  bcast_S_S600x600 : S_.BroadcastsInDim S600x600 (![] : Fin 0 → Fin S600x600.rank)
  reducesTo_S600x600_S_d0_1 : S600x600.ReducesTo [0, 1] S_
  bcast_S_S200x600 : S_.BroadcastsInDim S200x600 (![] : Fin 0 → Fin S200x600.rank)
  reducesTo_S200x600_S_d0_1 : S200x600.ReducesTo [0, 1] S_
  bcast_S_S200 : S_.BroadcastsInDim S200 (![] : Fin 0 → Fin S200.rank)
  reducesTo_S200_S_d0 : S200.ReducesTo [0] S_
  bcast_S_S10x200 : S_.BroadcastsInDim S10x200 (![] : Fin 0 → Fin S10x200.rank)
  reducesTo_S10x200_S_d0_1 : S10x200.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10x200 .f32) (main_arg12 : FVec F S10 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S10x200 .f32 := Host.absf main_arg11
  let main_cst_20 : FVec F S_ .f32 := constant S_ .f32 0x7F800000#32
  let main_v55 : FVec F S10x200 .f32 := broadcastInDim S10x200 ![] bcast_S_S10x200 main_cst_20
  let main_v56 : IVec S10x200 1 := cmpf .olt main_v54 main_v55
  let main_c_21 : IVec S_ 1 := constantI S_ 1 1#1
  let main_v57 : IVec S_ 1 := (fun x v => Host.reduce IntOp.andi x v reducesTo_S10x200_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S600x600 .f32) (main_arg8 : FVec F S600 .f32) (main_arg9 : FVec F S200x600 .f32) (main_arg10 : FVec F S200 .f32) (main_arg11 : FVec F S10x200 .f32) (main_arg12 : FVec F S10 .f32) (main_v33 : IVec S_ 1) : IVec S_ 1 :=
  let main_v34 : FVec F S600x600 .f32 := Host.absf main_arg7
  let main_cst_12 : FVec F S_ .f32 := constant S_ .f32 0x7F800000#32
  let main_v35 : FVec F S600x600 .f32 := broadcastInDim S600x600 ![] bcast_S_S600x600 main_cst_12
  let main_v36 : IVec S600x600 1 := cmpf .olt main_v34 main_v35
  let main_c_13 : IVec S_ 1 := constantI S_ 1 1#1
  let main_v37 : IVec S_ 1 := (fun x v => Host.reduce IntOp.andi x v reducesTo_S600x600_S_d0_1 h_S_) main_v36 main_c_13
  let main_v38 : IVec S_ 1 := andi main_v33 main_v37
  let main_v39 : FVec F S600 .f32 := Host.absf main_arg8
  let main_cst_14 : FVec F S_ .f32 := constant S_ .f32 0x7F800000#32
  let main_v40 : FVec F S600 .f32 := broadcastInDim S600 ![] bcast_S_S600 main_cst_14
  let main_v41 : IVec S600 1 := cmpf .olt main_v39 main_v40
  let main_c_15 : IVec S_ 1 := constantI S_ 1 1#1
  let main_v42 : IVec S_ 1 := (fun x v => Host.reduce IntOp.andi x v reducesTo_S600_S_d0 h_S_) main_v41 main_c_15
  let main_v43 : IVec S_ 1 := andi main_v38 main_v42
  let main_v44 : FVec F S200x600 .f32 := Host.absf main_arg9
  let main_cst_16 : FVec F S_ .f32 := constant S_ .f32 0x7F800000#32
  let main_v45 : FVec F S200x600 .f32 := broadcastInDim S200x600 ![] bcast_S_S200x600 main_cst_16
  let main_v46 : IVec S200x600 1 := cmpf .olt main_v44 main_v45
  let main_c_17 : IVec S_ 1 := constantI S_ 1 1#1
  let main_v47 : IVec S_ 1 := (fun x v => Host.reduce IntOp.andi x v reducesTo_S200x600_S_d0_1 h_S_) main_v46 main_c_17
  let main_v48 : IVec S_ 1 := andi main_v43 main_v47
  let main_v49 : FVec F S200 .f32 := Host.absf main_arg10
  let main_cst_18 : FVec F S_ .f32 := constant S_ .f32 0x7F800000#32
  let main_v50 : FVec F S200 .f32 := broadcastInDim S200 ![] bcast_S_S200 main_cst_18
  fn_part3 (F := F) main_arg11 main_arg12 main_v48 main_v49 main_v50

def fn_part1 {F : FTy → Type} [FloatOps F] (main_arg4 : FVec F S64 .f32) (main_arg5 : FVec F S64x600 .f32) (main_arg6 : FVec F S64 .f32) (main_arg7 : FVec F S600x600 .f32) (main_arg8 : FVec F S600 .f32) (main_arg9 : FVec F S200x600 .f32) (main_arg10 : FVec F S200 .f32) (main_arg11 : FVec F S10x200 .f32) (main_arg12 : FVec F S10 .f32) (main_v13 : IVec S_ 1) (main_v16 : IVec S64x600 1) : IVec S_ 1 :=
  let main_c_5 : IVec S_ 1 := constantI S_ 1 1#1
  let main_v17 : IVec S_ 1 := (fun x v => Host.reduce IntOp.andi x v reducesTo_S64x600_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x600 .f32 := Host.absf main_arg5
  let main_cst_8 : FVec F S_ .f32 := constant S_ .f32 0x7F800000#32
  let main_v25 : FVec F S64x600 .f32 := broadcastInDim S64x600 ![] bcast_S_S64x600 main_cst_8
  let main_v26 : IVec S64x600 1 := cmpf .olt main_v24 main_v25
  let main_c_9 : IVec S_ 1 := constantI S_ 1 1#1
  let main_v27 : IVec S_ 1 := (fun x v => Host.reduce IntOp.andi x v reducesTo_S64x600_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512x784 .f32) (main_arg1 : FVec F S600x784 .f32) (main_arg2 : FVec F S600 .f32) (main_arg3 : FVec F S64x600 .f32) (main_arg4 : FVec F S64 .f32) (main_arg5 : FVec F S64x600 .f32) (main_arg6 : FVec F S64 .f32) (main_arg7 : FVec F S600x600 .f32) (main_arg8 : FVec F S600 .f32) (main_arg9 : FVec F S200x600 .f32) (main_arg10 : FVec F S200 .f32) (main_arg11 : FVec F S10x200 .f32) (main_arg12 : FVec F S10 .f32) : IVec S_ 1 :=
  let main_v0 : FVec F S64x512x784 .f32 := Host.absf main_arg0
  let main_cst : FVec F S_ .f32 := constant S_ .f32 0x7F800000#32
  let main_v1 : FVec F S64x512x784 .f32 := broadcastInDim S64x512x784 ![] bcast_S_S64x512x784 main_cst
  let main_v2 : IVec S64x512x784 1 := cmpf .olt main_v0 main_v1
  let main_c : IVec S_ 1 := constantI S_ 1 1#1
  let main_v3 : IVec S_ 1 := (fun x v => Host.reduce IntOp.andi x v reducesTo_S64x512x784_S_d0_1_2 h_S_) main_v2 main_c
  let main_v4 : FVec F S600x784 .f32 := Host.absf main_arg1
  let main_cst_0 : FVec F S_ .f32 := constant S_ .f32 0x7F800000#32
  let main_v5 : FVec F S600x784 .f32 := broadcastInDim S600x784 ![] bcast_S_S600x784 main_cst_0
  let main_v6 : IVec S600x784 1 := cmpf .olt main_v4 main_v5
  let main_c_1 : IVec S_ 1 := constantI S_ 1 1#1
  let main_v7 : IVec S_ 1 := (fun x v => Host.reduce IntOp.andi x v reducesTo_S600x784_S_d0_1 h_S_) main_v6 main_c_1
  let main_v8 : IVec S_ 1 := andi main_v3 main_v7
  let main_v9 : FVec F S600 .f32 := Host.absf main_arg2
  let main_cst_2 : FVec F S_ .f32 := constant S_ .f32 0x7F800000#32
  let main_v10 : FVec F S600 .f32 := broadcastInDim S600 ![] bcast_S_S600 main_cst_2
  let main_v11 : IVec S600 1 := cmpf .olt main_v9 main_v10
  let main_c_3 : IVec S_ 1 := constantI S_ 1 1#1
  let main_v12 : IVec S_ 1 := (fun x v => Host.reduce IntOp.andi x v reducesTo_S600_S_d0 h_S_) main_v11 main_c_3
  let main_v13 : IVec S_ 1 := andi main_v8 main_v12
  let main_v14 : FVec F S64x600 .f32 := Host.absf main_arg3
  let main_cst_4 : FVec F S_ .f32 := constant S_ .f32 0x7F800000#32
  let main_v15 : FVec F S64x600 .f32 := broadcastInDim S64x600 ![] bcast_S_S64x600 main_cst_4
  let main_v16 : IVec S64x600 1 := cmpf .olt main_v14 main_v15
  fn_part1 (F := F) main_arg4 main_arg5 main_arg6 main_arg7 main_arg8 main_arg9 main_arg10 main_arg11 main_arg12 main_v13 main_v16
-- ==== Kernel.lean ====
abbrev S64x512x784 : Shape := ⟨3, ![64, 512, 784]⟩
abbrev S600x784 : Shape := ⟨2, ![600, 784]⟩
abbrev S600 : Shape := ⟨1, ![600]⟩
abbrev S64x600 : Shape := ⟨2, ![64, 600]⟩
abbrev S64 : Shape := ⟨1, ![64]⟩
abbrev S600x600 : Shape := ⟨2, ![600, 600]⟩
abbrev S200x600 : Shape := ⟨2, ![200, 600]⟩
abbrev S200 : Shape := ⟨1, ![200]⟩
abbrev S10x200 : Shape := ⟨2, ![10, 200]⟩
abbrev S10 : Shape := ⟨1, ![10]⟩
abbrev S_ : Shape := ⟨0, ![]⟩
abbrev S728x600 : Shape := ⟨2, ![728, 600]⟩
abbrev S728 : Shape := ⟨1, ![728]⟩
abbrev S1x728 : Shape := ⟨2, ![1, 728]⟩
abbrev S1x600 : Shape := ⟨2, ![1, 600]⟩
abbrev S1x200 : Shape := ⟨2, ![1, 200]⟩
abbrev S1x10 : Shape := ⟨2, ![1, 10]⟩
abbrev S64x512x10 : Shape := ⟨3, ![64, 512, 10]⟩
abbrev S1x512x784 : Shape := ⟨3, ![1, 512, 784]⟩
abbrev S1x512x10 : Shape := ⟨3, ![1, 512, 10]⟩
abbrev S512x784 : Shape := ⟨2, ![512, 784]⟩
abbrev S512x600 : Shape := ⟨2, ![512, 600]⟩
abbrev S512x728 : Shape := ⟨2, ![512, 728]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S512x200 : Shape := ⟨2, ![512, 200]⟩
abbrev S512x10 : Shape := ⟨2, ![512, 10]⟩

abbrev nBuf : Space → Nat
  | .hbm => 31
  | .vmem => 14
  | .smem => 0
  | _ => 0

abbrev bufTy : (tb : Table) → Fin (tcTables nBuf tb) → BufTy
  | .hbm, ⟨0, _⟩ => ⟨S64x512x784, .f32⟩
  | .hbm, ⟨1, _⟩ => ⟨S600x784, .f32⟩
  | .hbm, ⟨2, _⟩ => ⟨S600, .f32⟩
  | .hbm, ⟨3, _⟩ => ⟨S64x600, .f32⟩
  | .hbm, ⟨4, _⟩ => ⟨S64, .f32⟩
  | .hbm, ⟨5, _⟩ => ⟨S64x600, .f32⟩
  | .hbm, ⟨6, _⟩ => ⟨S64, .f32⟩
  | .hbm, ⟨7, _⟩ => ⟨S600x600, .f32⟩
  | .hbm, ⟨8, _⟩ => ⟨S600, .f32⟩
  | .hbm, ⟨9, _⟩ => ⟨S200x600, .f32⟩
  | .hbm, ⟨10, _⟩ => ⟨S200, .f32⟩
  | .hbm, ⟨11, _⟩ => ⟨S10x200, .f32⟩
  | .hbm, ⟨12, _⟩ => ⟨S10, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S600x784, .f32⟩
  | .hbm, ⟨21, _⟩ => ⟨S600x784, .f32⟩
  | .hbm, ⟨22, _⟩ => ⟨S728x600, .f32⟩
  | .hbm, ⟨23, _⟩ => ⟨S728x600, .bf16⟩
  | .hbm, ⟨24, _⟩ => ⟨S728, .f32⟩
  | .hbm, ⟨25, _⟩ => ⟨S1x728, .f32⟩
  | .hbm, ⟨26, _⟩ => ⟨S1x600, .f32⟩
  | .hbm, ⟨27, _⟩ => ⟨S1x200, .f32⟩
  | .hbm, ⟨28, _⟩ => ⟨S1x10, .f32⟩
  | .hbm, ⟨29, _⟩ => ⟨S64x512x10, .f32⟩
  | .hbm, ⟨30, _⟩ => ⟨S64x512x10, .f32⟩
  | .local _ .vmem, ⟨0, _⟩ => ⟨S1x512x784, .f32⟩
  | .local _ .vmem, ⟨1, _⟩ => ⟨S1x512x784, .f32⟩
  | .local _ .vmem, ⟨2, _⟩ => ⟨S600x784, .f32⟩
  | .local _ .vmem, ⟨3, _⟩ => ⟨S1x600, .f32⟩
  | .local _ .vmem, ⟨4, _⟩ => ⟨S728x600, .bf16⟩
  | .local _ .vmem, ⟨5, _⟩ => ⟨S1x728, .f32⟩
  | .local _ .vmem, ⟨6, _⟩ => ⟨S200x600, .f32⟩
  | .local _ .vmem, ⟨7, _⟩ => ⟨S1x200, .f32⟩
  | .local _ .vmem, ⟨8, _⟩ => ⟨S10x200, .f32⟩
  | .local _ .vmem, ⟨9, _⟩ => ⟨S1x10, .f32⟩
  | .local _ .vmem, ⟨10, _⟩ => ⟨S1x512x10, .f32⟩
  | .local _ .vmem, ⟨11, _⟩ => ⟨S1x512x10, .f32⟩
  | .local _ .vmem, ⟨12, _⟩ => ⟨S1x512x10, .f32⟩
  | .local _ .vmem, ⟨13, _⟩ => ⟨S1x512x10, .f32⟩
  | _, _ => ⟨S64x512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_cst_2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S600x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S728x600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  reducesTo_S64x512x784_S_d0_1_2 : S64x512x784.ReducesTo [0, 1, 2] S_
  h_S_ : 0 < S_.numel
  bcast_S_S600x784 : S_.BroadcastsInDim S600x784 (![] : Fin 0 → Fin S600x784.rank)
  concatenates_S64x600_S64x600_S600x600_S728x600_d0 : Shape.Concatenates [S64x600, S64x600, S600x600] S728x600 0
  bitsLt_bf16_f32 : FTy.bits .bf16 < FTy.bits .f32
  concatenates_S64_S64_S600_S728_d0 : Shape.Concatenates [S64, S64, S600] S728 0
  shapeCasts_S728_S1x728 : S728.ShapeCasts S1x728
  shapeCasts_S600_S1x600 : S600.ShapeCasts S1x600
  shapeCasts_S200_S1x200 : S200.ShapeCasts S1x200
  shapeCasts_S10_S1x10 : S10.ShapeCasts S1x10
  inb_S1x512x784_S1x512x784_0_0_0 : ∀ a, (![0, 0, 0] : Fin 3 → Nat) a + S1x512x784.size a ≤ S1x512x784.size a
  h_S1x512x784 : 0 < S1x512x784.numel
  shapeCasts_S1x512x784_S512x784 : S1x512x784.ShapeCasts S512x784
  inb_S600x784_S600x784_0_0 : ∀ a, (![0, 0] : Fin 2 → Nat) a + S600x784.size a ≤ S600x784.size a
  h_S600x784 : 0 < S600x784.numel
  shapeCasts_S600x784_S600x784 : S600x784.ShapeCasts S600x784
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S512x600 : S1x600.Broadcasts S512x600
  natLt_1_32 : 1 < 32
  inb_S728x600_S728x600_0_0 : ∀ a, (![0, 0] : Fin 2 → Nat) a + S728x600.size a ≤ S728x600.size a
  h_S728x600 : 0 < S728x600.numel
  shapeCasts_S728x600_S728x600 : S728x600.ShapeCasts S728x600
  inb_S1x728_S1x728_0_0 : ∀ a, (![0, 0] : Fin 2 → Nat) a + S1x728.size a ≤ S1x728.size a
  h_S1x728 : 0 < S1x728.numel
  shapeCasts_S1x728_S1x728 : S1x728.ShapeCasts S1x728
  broadcasts_S1x728_S512x728 : S1x728.Broadcasts S512x728
  slices_S512x728_o0_0_S512x64 : S512x728.Slices ![0, 0] S512x64
  slices_S512x728_o0_64_S512x64 : S512x728.Slices ![0, 64] S512x64
  slices_S512x728_o0_128_S512x600 : S512x728.Slices ![0, 128] S512x600
  reduces_S512x512_S512 : S512x512.Reduces [1] S512
  shapeCasts_S512_S512x1 : S512.ShapeCasts S512x1
  broadcasts_S512x1_S512x512 : S512x1.Broadcasts S512x512
  inb_S200x600_S200x600_0_0 : ∀ a, (![0, 0] : Fin 2 → Nat) a + S200x600.size a ≤ S200x600.size a
  h_S200x600 : 0 < S200x600.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S512x200 : S1x200.Broadcasts S512x200
  inb_S10x200_S10x200_0_0 : ∀ a, (![0, 0] : Fin 2 → Nat) a + S10x200.size a ≤ S10x200.size a
  h_S10x200 : 0 < S10x200.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S1x512x10_S1x512x10_0_0_0 : ∀ a, (![0, 0, 0] : Fin 3 → Nat) a + S1x512x10.size a ≤ S1x512x10.size a
  h_S1x512x10 : 0 < S1x512x10.numel
  shapeCasts_S1x512x10_S512x10 : S1x512x10.ShapeCasts S512x10
  shapeCasts_S512x10_S1x512x10 : S512x10.ShapeCasts S1x512x10
  dot_S512x784_S600x784_S512x600_1_1_0_0_n_n_wf : DotDims.WF S512x784 S600x784 S512x600 [1] [1] [0] [0] [] []
  dot_S512x600_S728x600_S512x728_1_1_0_0_n_n_wf : DotDims.WF S512x600 S728x600 S512x728 [1] [1] [0] [0] [] []
  dot_S512x64_S512x64_S512x512_1_1_0_0_n_n_wf : DotDims.WF S512x64 S512x64 S512x512 [1] [1] [0] [0] [] []
  dot_S512x512_S512x600_S512x600_1_0_0_1_n_n_wf : DotDims.WF S512x512 S512x600 S512x600 [1] [0] [0] [1] [] []
  dot_S512x600_S200x600_S512x200_1_1_0_0_n_n_wf : DotDims.WF S512x600 S200x600 S512x200 [1] [1] [0] [0] [] []
  dot_S512x200_S10x200_S512x10_1_1_0_0_n_n_wf : DotDims.WF S512x200 S10x200 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x784.size a ≤ S64x512x784.size a
  hwx0_0 : ∀ i : grid0.Coords, EltTy.bits .f32 = 32 ∨ (Rect.block (s := S64x512x784) S1x512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S600x784.size a ≤ S600x784.size a
  hwx0_1 : ∀ i : grid0.Coords, EltTy.bits .f32 = 32 ∨ (Rect.block (s := S600x784) S600x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x600.size a ≤ S1x600.size a
  hwx0_2 : ∀ i : grid0.Coords, EltTy.bits .f32 = 32 ∨ (Rect.block (s := S1x600) S1x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S728x600.size a ≤ S728x600.size a
  hwx0_3 : ∀ i : grid0.Coords, EltTy.bits .bf16 = 32 ∨ (Rect.block (s := S728x600) S728x600.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x728.size a ≤ S1x728.size a
  hwx0_4 : ∀ i : grid0.Coords, EltTy.bits .f32 = 32 ∨ (Rect.block (s := S1x728) S1x728.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x600.size a ≤ S200x600.size a
  hwx0_5 : ∀ i : grid0.Coords, EltTy.bits .f32 = 32 ∨ (Rect.block (s := S200x600) S200x600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x200.size a ≤ S1x200.size a
  hwx0_6 : ∀ i : grid0.Coords, EltTy.bits .f32 = 32 ∨ (Rect.block (s := S1x200) S1x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x200.size a ≤ S10x200.size a
  hwx0_7 : ∀ i : grid0.Coords, EltTy.bits .f32 = 32 ∨ (Rect.block (s := S10x200) S10x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x10.size a ≤ S64x512x10.size a
  hwx0_9 : ∀ i : grid0.Coords, EltTy.bits .f32 = 32 ∨ (Rect.block (s := S64x512x10) S1x512x10.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x10.size a ≤ S64x512x10.size a
  hwx0_10 : ∀ i : grid0.Coords, EltTy.bits .f32 = 32 ∨ (Rect.block (s := S64x512x10) S1x512x10.size (cc0_transform_10 i) (hinb0_10 i)).WholeWords (EltTy.packing .f32)

variable [Facts₀]

def dot_S512x784_S600x784_S512x600_1_1_0_0_n_n : DotDims S512x784 S600x784 S512x600 where
  lhsContracting := [1]
  rhsContracting := [1]
  lhsNonContracting := [0]
  rhsNonContracting := [0]
  lhsBatch := []
  rhsBatch := []
  wf := dot_S512x784_S600x784_S512x600_1_1_0_0_n_n_wf
def dot_S512x600_S728x600_S512x728_1_1_0_0_n_n : DotDims S512x600 S728x600 S512x728 where
  lhsContracting := [1]
  rhsContracting := [1]
  lhsNonContracting := [0]
  rhsNonContracting := [0]
  lhsBatch := []
  rhsBatch := []
  wf := dot_S512x600_S728x600_S512x728_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x600_S512x600_1_0_0_1_n_n : DotDims S512x512 S512x600 S512x600 where
  lhsContracting := [1]
  rhsContracting := [0]
  lhsNonContracting := [0]
  rhsNonContracting := [1]
  lhsBatch := []
  rhsBatch := []
  wf := dot_S512x512_S512x600_S512x600_1_0_0_1_n_n_wf
def dot_S512x600_S200x600_S512x200_1_1_0_0_n_n : DotDims S512x600 S200x600 S512x200 where
  lhsContracting := [1]
  rhsContracting := [1]
  lhsNonContracting := [0]
  rhsNonContracting := [0]
  lhsBatch := []
  rhsBatch := []
  wf := dot_S512x600_S200x600_S512x200_1_1_0_0_n_n_wf
def dot_S512x200_S10x200_S512x10_1_1_0_0_n_n : DotDims S512x200 S10x200 S512x10 where
  lhsContracting := [1]
  rhsContracting := [1]
  lhsNonContracting := [0]
  rhsNonContracting := [0]
  lhsBatch := []
  rhsBatch := []
  wf := dot_S512x200_S10x200_S512x10_1_1_0_0_n_n_wf

abbrev win0_0 : Pipeline.Window sig grid0 :=
  Pipeline.Window.ofSpec (Memref.whole main_arg0) S1x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S600x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S728x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x728.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S200x600.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S10x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S1x512x10.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S1x512x10.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x512x784 : Shape := ⟨3, ![64, 512, 784]⟩
abbrev S600x784 : Shape := ⟨2, ![600, 784]⟩
abbrev S600 : Shape := ⟨1, ![600]⟩
abbrev S64x600 : Shape := ⟨2, ![64, 600]⟩
abbrev S64 : Shape := ⟨1, ![64]⟩
abbrev S600x600 : Shape := ⟨2, ![600, 600]⟩
abbrev S200x600 : Shape := ⟨2, ![200, 600]⟩
abbrev S200 : Shape := ⟨1, ![200]⟩
abbrev S10x200 : Shape := ⟨2, ![10, 200]⟩
abbrev S10 : Shape := ⟨1, ![10]⟩
abbrev S_ : Shape := ⟨0, ![]⟩
abbrev S64x512x600 : Shape := ⟨3, ![64, 512, 600]⟩
abbrev S1x1x600 : Shape := ⟨3, ![1, 1, 600]⟩
abbrev S64x512x64 : Shape := ⟨3, ![64, 512, 64]⟩
abbrev S1x1x64 : Shape := ⟨3, ![1, 1, 64]⟩
abbrev S64x512x512 : Shape := ⟨3, ![64, 512, 512]⟩
abbrev S64x512 : Shape := ⟨2, ![64, 512]⟩
abbrev S64x512x1 : Shape := ⟨3, ![64, 512, 1]⟩
abbrev S64x512x200 : Shape := ⟨3, ![64, 512, 200]⟩
abbrev S1x1x200 : Shape := ⟨3, ![1, 1, 200]⟩
abbrev S64x512x10 : Shape := ⟨3, ![64, 512, 10]⟩
abbrev S1x1x10 : Shape := ⟨3, ![1, 1, 10]⟩

abbrev nBuf : Space → Nat
  | .hbm => 94
  | .vmem => 0
  | .smem => 0
  | _ => 0

abbrev bufTy : (tb : Table) → Fin (tcTables nBuf tb) → BufTy
  | .hbm, ⟨0, _⟩ => ⟨S64x512x784, .f32⟩
  | .hbm, ⟨1, _⟩ => ⟨S600x784, .f32⟩
  | .hbm, ⟨2, _⟩ => ⟨S600, .f32⟩
  | .hbm, ⟨3, _⟩ => ⟨S64x600, .f32⟩
  | .hbm, ⟨4, _⟩ => ⟨S64, .f32⟩
  | .hbm, ⟨5, _⟩ => ⟨S64x600, .f32⟩
  | .hbm, ⟨6, _⟩ => ⟨S64, .f32⟩
  | .hbm, ⟨7, _⟩ => ⟨S600x600, .f32⟩
  | .hbm, ⟨8, _⟩ => ⟨S600, .f32⟩
  | .hbm, ⟨9, _⟩ => ⟨S200x600, .f32⟩
  | .hbm, ⟨10, _⟩ => ⟨S200, .f32⟩
  | .hbm, ⟨11, _⟩ => ⟨S10x200, .f32⟩
  | .hbm, ⟨12, _⟩ => ⟨S10, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64x512x784, .f32⟩
  | .hbm, ⟨22, _⟩ => ⟨S64x512x784, .f32⟩
  | .hbm, ⟨23, _⟩ => ⟨S64x512x600, .f32⟩
  | .hbm, ⟨24, _⟩ => ⟨S1x1x600, .f32⟩
  | .hbm, ⟨25, _⟩ => ⟨S64x512x600, .f32⟩
  | .hbm, ⟨26, _⟩ => ⟨S64x512x600, .f32⟩
  | .hbm, ⟨27, _⟩ => ⟨S_, .f32⟩
  | .hbm, ⟨28, _⟩ => ⟨S64x512x600, .f32⟩
  | .hbm, ⟨29, _⟩ => ⟨S64x512x600, .i1⟩
  | .hbm, ⟨30, _⟩ => ⟨S64x512x600, .f32⟩
  | .hbm, ⟨31, _⟩ => ⟨S_, .f32⟩
  | .hbm, ⟨32, _⟩ => ⟨S64x512x600, .f32⟩
  | .hbm, ⟨33, _⟩ => ⟨S64x512x600, .f32⟩
  | .hbm, ⟨34, _⟩ => ⟨S64x512x600, .f32⟩
  | .hbm, ⟨35, _⟩ => ⟨S64x512x64, .f32⟩
  | .hbm, ⟨36, _⟩ => ⟨S1x1x64, .f32⟩
  | .hbm, ⟨37, _⟩ => ⟨S64x512x64, .f32⟩
  | .hbm, ⟨38, _⟩ => ⟨S64x512x64, .f32⟩
  | .hbm, ⟨39, _⟩ => ⟨S64x512x64, .f32⟩
  | .hbm, ⟨40, _⟩ => ⟨S1x1x64, .f32⟩
  | .hbm, ⟨41, _⟩ => ⟨S64x512x64, .f32⟩
  | .hbm, ⟨42, _⟩ => ⟨S64x512x64, .f32⟩
  | .hbm, ⟨43, _⟩ => ⟨S64x512x600, .f32⟩
  | .hbm, ⟨44, _⟩ => ⟨S1x1x600, .f32⟩
  | .hbm, ⟨45, _⟩ => ⟨S64x512x600, .f32⟩
  | .hbm, ⟨46, _⟩ => ⟨S64x512x600, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64x512x512, .f32⟩
  | .hbm, ⟨52, _⟩ => ⟨S64x512x512, .f32⟩
  | .hbm, ⟨53, _⟩ => ⟨S64x512x512, .f32⟩
  | .hbm, ⟨54, _⟩ => ⟨S_, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x512x1, .f32⟩
  | .hbm, ⟨60, _⟩ => ⟨S64x512x512, .f32⟩
  | .hbm, ⟨61, _⟩ => ⟨S64x512x512, .f32⟩
  | .hbm, ⟨62, _⟩ => ⟨S64x512x512, .f32⟩
  | .hbm, ⟨63, _⟩ => ⟨S_, .f32⟩
  | .hbm, ⟨64, _⟩ => ⟨S64x512, .f32⟩
  | .hbm, ⟨65, _⟩ => ⟨S64x512x1, .f32⟩
  | .hbm, ⟨66, _⟩ => ⟨S64x512x512, .f32⟩
  | .hbm, ⟨67, _⟩ => ⟨S64x512x512, .f32⟩
  | .hbm, ⟨68, _⟩ => ⟨S64x512x600, .f32⟩
  | .hbm, ⟨69, _⟩ => ⟨S64x512x600, .f32⟩
  | .hbm, ⟨70, _⟩ => ⟨S64x512x200, .f32⟩
  | .hbm, ⟨71, _⟩ => ⟨S1x1x200, .f32⟩
  | .hbm, ⟨72, _⟩ => ⟨S64x512x200, .f32⟩
  | .hbm, ⟨73, _⟩ => ⟨S64x512x200, .f32⟩
  | .hbm, ⟨74, _⟩ => ⟨S_, .f32⟩
  | .hbm, ⟨75, _⟩ => ⟨S64x512x200, .f32⟩
  | .hbm, ⟨76, _⟩ => ⟨S64x512x200, .i1⟩
  | .hbm, ⟨77, _⟩ => ⟨S64x512x200, .f32⟩
  | .hbm, ⟨78, _⟩ => ⟨S_, .f32⟩
  | .hbm, ⟨79, _⟩ => ⟨S64x512x200, .f32⟩
  | .hbm, ⟨80, _⟩ => ⟨S64x512x200, .f32⟩
  | .hbm, ⟨81, _⟩ => ⟨S64x512x200, .f32⟩
  | .hbm, ⟨82, _⟩ => ⟨S64x512x10, .f32⟩
  | .hbm, ⟨83, _⟩ => ⟨S1x1x10, .f32⟩
  | .hbm, ⟨84, _⟩ => ⟨S64x512x10, .f32⟩
  | .hbm, ⟨85, _⟩ => ⟨S64x512x10, .f32⟩
  | .hbm, ⟨86, _⟩ => ⟨S_, .f32⟩
  | .hbm, ⟨87, _⟩ => ⟨S64x512x10, .f32⟩
  | .hbm, ⟨88, _⟩ => ⟨S64x512x10, .i1⟩
  | .hbm, ⟨89, _⟩ => ⟨S64x512x10, .f32⟩
  | .hbm, ⟨90, _⟩ => ⟨S_, .f32⟩
  | .hbm, ⟨91, _⟩ => ⟨S64x512x10, .f32⟩
  | .hbm, ⟨92, _⟩ => ⟨S64x512x10, .f32⟩
  | .hbm, ⟨93, _⟩ => ⟨S64x512x10, .f32⟩
  | _, _ => ⟨S64x512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_cst_2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  reducesTo_S64x512x784_S_d0_1_2 : S64x512x784.ReducesTo [0, 1, 2] S_
  h_S_ : 0 < S_.numel
  bcast_S_S64x512x784 : S_.BroadcastsInDim S64x512x784 (![] : Fin 0 → Fin S64x512x784.rank)
  bcast_S600_S1x1x600_2 : S600.BroadcastsInDim S1x1x600 (![2] : Fin 1 → Fin S1x1x600.rank)
  bcast_S1x1x600_S64x512x600_0_1_2 : S1x1x600.BroadcastsInDim S64x512x600 (![0, 1, 2] : Fin 3 → Fin S64x512x600.rank)
  bcast_S_S64x512x600 : S_.BroadcastsInDim S64x512x600 (![] : Fin 0 → Fin S64x512x600.rank)
  bcast_S64_S1x1x64_2 : S64.BroadcastsInDim S1x1x64 (![2] : Fin 1 → Fin S1x1x64.rank)
  bcast_S1x1x64_S64x512x64_0_1_2 : S1x1x64.BroadcastsInDim S64x512x64 (![0, 1, 2] : Fin 3 → Fin S64x512x64.rank)
  bcast_S_S64x512x512 : S_.BroadcastsInDim S64x512x512 (![] : Fin 0 → Fin S64x512x512.rank)
  reducesTo_S64x512x512_S64x512_d2 : S64x512x512.ReducesTo [2] S64x512
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S200_S1x1x200_2 : S200.BroadcastsInDim S1x1x200 (![2] : Fin 1 → Fin S1x1x200.rank)
  bcast_S1x1x200_S64x512x200_0_1_2 : S1x1x200.BroadcastsInDim S64x512x200 (![0, 1, 2] : Fin 3 → Fin S64x512x200.rank)
  bcast_S_S64x512x200 : S_.BroadcastsInDim S64x512x200 (![] : Fin 0 → Fin S64x512x200.rank)
  bcast_S10_S1x1x10_2 : S10.BroadcastsInDim S1x1x10 (![2] : Fin 1 → Fin S1x1x10.rank)
  bcast_S1x1x10_S64x512x10_0_1_2 : S1x1x10.BroadcastsInDim S64x512x10 (![0, 1, 2] : Fin 3 → Fin S64x512x10.rank)
  bcast_S_S64x512x10 : S_.BroadcastsInDim S64x512x10 (![] : Fin 0 → Fin S64x512x10.rank)
  dot_S64x512x784_S600x784_S64x512x600_2_1_01_0_n_n_wf : DotDims.WF S64x512x784 S600x784 S64x512x600 [2] [1] [0, 1] [0] [] []
  dot_S64x512x600_S64x600_S64x512x64_2_1_01_0_n_n_wf : DotDims.WF S64x512x600 S64x600 S64x512x64 [2] [1] [0, 1] [0] [] []
  dot_S64x512x600_S600x600_S64x512x600_2_1_01_0_n_n_wf : DotDims.WF S64x512x600 S600x600 S64x512x600 [2] [1] [0, 1] [0] [] []
  dot_S64x512x64_S64x512x64_S64x512x512_2_2_1_1_0_0_wf : DotDims.WF S64x512x64 S64x512x64 S64x512x512 [2] [2] [1] [1] [0] [0]
  dot_S64x512x512_S64x512x600_S64x512x600_2_1_1_2_0_0_wf : DotDims.WF S64x512x512 S64x512x600 S64x512x600 [2] [1] [1] [2] [0] [0]
  dot_S64x512x600_S200x600_S64x512x200_2_1_01_0_n_n_wf : DotDims.WF S64x512x600 S200x600 S64x512x200 [2] [1] [0, 1] [0] [] []
  dot_S64x512x200_S10x200_S64x512x10_2_1_01_0_n_n_wf : DotDims.WF S64x512x200 S10x200 S64x512x10 [2] [1] [0, 1] [0] [] []

variable [Facts₀]

def dot_S64x512x784_S600x784_S64x512x600_2_1_01_0_n_n : DotDims S64x512x784 S600x784 S64x512x600 where
  lhsContracting := [2]
  rhsContracting := [1]
  lhsNonContracting := [0, 1]
  rhsNonContracting := [0]
  lhsBatch := []
  rhsBatch := []
  wf := dot_S64x512x784_S600x784_S64x512x600_2_1_01_0_n_n_wf
def dot_S64x512x600_S64x600_S64x512x64_2_1_01_0_n_n : DotDims S64x512x600 S64x600 S64x512x64 where
  lhsContracting := [2]
  rhsContracting := [1]
  lhsNonContracting := [0, 1]
  rhsNonContracting := [0]
  lhsBatch := []
  rhsBatch := []
  wf := dot_S64x512x600_S64x600_S64x512x64_2_1_01_0_n_n_wf
def dot_S64x512x600_S600x600_S64x512x600_2_1_01_0_n_n : DotDims S64x512x600 S600x600 S64x512x600 where
  lhsContracting := [2]
  rhsContracting := [1]
  lhsNonContracting := [0, 1]
  rhsNonContracting := [0]
  lhsBatch := []
  rhsBatch := []
  wf := dot_S64x512x600_S600x600_S64x512x600_2_1_01_0_n_n_wf
def dot_S64x512x64_S64x512x64_S64x512x512_2_2_1_1_0_0 : DotDims S64x512x64 S64x512x64 S64x512x512 where
  lhsContracting := [2]
  rhsContracting := [2]
  lhsNonContracting := [1]
  rhsNonContracting := [1]
  lhsBatch := [0]
  rhsBatch := [0]
  wf := dot_S64x512x64_S64x512x64_S64x512x512_2_2_1_1_0_0_wf
def dot_S64x512x512_S64x512x600_S64x512x600_2_1_1_2_0_0 : DotDims S64x512x512 S64x512x600 S64x512x600 where
  lhsContracting := [2]
  rhsContracting := [1]
  lhsNonContracting := [1]
  rhsNonContracting := [2]
  lhsBatch := [0]
  rhsBatch := [0]
  wf := dot_S64x512x512_S64x512x600_S64x512x600_2_1_1_2_0_0_wf
def dot_S64x512x600_S200x600_S64x512x200_2_1_01_0_n_n : DotDims S64x512x600 S200x600 S64x512x200 where
  lhsContracting := [2]
  rhsContracting := [1]
  lhsNonContracting := [0, 1]
  rhsNonContracting := [0]
  lhsBatch := []
  rhsBatch := []
  wf := dot_S64x512x600_S200x600_S64x512x200_2_1_01_0_n_n_wf
def dot_S64x512x200_S10x200_S64x512x10_2_1_01_0_n_n : DotDims S64x512x200 S10x200 S64x512x10 where
  lhsContracting := [2]
  rhsContracting := [1]
  lhsNonContracting := [0, 1]
  rhsNonContracting := [0]
  lhsBatch := []
  rhsBatch := []
  wf := dot_S64x512x200_S10x200_S64x512x10_2_1_01_0_n_n_wf

class Facts : Prop extends Facts₀ where

variable [Facts]
-- ==== Proof.BitsFrameHost.lean ====
import proofs.«146510_j26671746908706_2_alg».proof.Proof.Gen.Kernel.Launch
import proofs.«146510_j26671746908706_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program before the region

The entry function first computes, with sixteen array operations (one of them inside a called function), the
operands the region stages that are not arguments themselves: the rescaled first weight matrix, the two
concatenations (one then narrowed to sixteen-bit floats), and four reshaped bias vectors. None of these operations
writes an argument array. -/

/-- The contents of core `c`'s arrays at the moment the region starts: the launch contents pushed through the three
    stretches of host operations in order. -/
abbrev V (c : Dev nD) (b : Ref sig .tc) : Buf (Elt F) ((c : Thread nD τ).loc b) :=
  StableHlo.after (List.flatten [hostOps0, hostOps0_1, hostOps0_2]) (fun b => m (c, b)) b

/-- No operation of the first stretch allocates. -/
theorem hostOps0_fresh : (hostOps0 : List (HloOp τ sig (Elt F))).Forall fun op => op.fresh = ∅ := by
  simp only [List.Forall]; repeat' constructor
/-- Nor does the select inside the called function. -/
theorem hostOps0_1_fresh : (hostOps0_1 : List (HloOp τ sig (Elt F))).Forall fun op => op.fresh = ∅ := by
  simp only [List.Forall]; repeat' constructor
/-- Nor any of the nine operations after it, the two three-operand concatenations included. -/
theorem hostOps0_2_fresh : (hostOps0_2 : List (HloOp τ sig (Elt F))).Forall fun op => op.fresh = ∅ := by
  simp only [List.Forall]; repeat' constructor

/-- The entry function is the three stretches followed by the region, so it reaches the region with the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- Nothing before the region writes argument 0: the region finds it as it was launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 1: the region finds it as it was launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 2: the region finds it as it was launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 3: the region finds it as it was launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 4: the region finds it as it was launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 5: the region finds it as it was launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 6: the region finds it as it was launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 7: the region finds it as it was launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 8: the region finds it as it was launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 9: the region finds it as it was launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 10: the region finds it as it was launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 11: the region finds it as it was launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 12: the region finds it as it was launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## Blocks -/

/-- The block of window `w` that belongs to grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: whatever the proof data, if its array is the region-entry one and the body leaves the block
    where it found it, the current staging buffer holds the window's block at every point — at a point with no fetch the
    block index is the previous point's, so the buffer still holds the right block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: whatever the proof data, if its array is the region-entry one and the body leaves the block
    where it found it, the current staging buffer holds the window's block at every point — at a point with no fetch the
    block index is the previous point's, so the buffer still holds the right block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: whatever the proof data, if its array is the region-entry one and the body leaves the block
    where it found it, the current staging buffer holds the window's block at every point — at a point with no fetch the
    block index is the previous point's, so the buffer still holds the right block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: whatever the proof data, if its array is the region-entry one and the body leaves the block
    where it found it, the current staging buffer holds the window's block at every point — at a point with no fetch the
    block index is the previous point's, so the buffer still holds the right block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: whatever the proof data, if its array is the region-entry one and the body leaves the block
    where it found it, the current staging buffer holds the window's block at every point — at a point with no fetch the
    block index is the previous point's, so the buffer still holds the right block. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: whatever the proof data, if its array is the region-entry one and the body leaves the block
    where it found it, the current staging buffer holds the window's block at every point — at a point with no fetch the
    block index is the previous point's, so the buffer still holds the right block. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: whatever the proof data, if its array is the region-entry one and the body leaves the block
    where it found it, the current staging buffer holds the window's block at every point — at a point with no fetch the
    block index is the previous point's, so the buffer still holds the right block. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7: whatever the proof data, if its array is the region-entry one and the body leaves the block
    where it found it, the current staging buffer holds the window's block at every point — at a point with no fetch the
    block index is the previous point's, so the buffer still holds the right block. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8: whatever the proof data, if its array is the region-entry one and the body leaves the block
    where it found it, the current staging buffer holds the window's block at every point — at a point with no fetch the
    block index is the previous point's, so the buffer still holds the right block. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the claim about the arguments -/

/-- If a run of the entry function ends in the pipeline library's final-state description (for any proof data whose
    arrays are the region-entry contents), then every argument array ends as launched: the three arguments the region
    stages as inputs are never written back, the other ten bypass the region, and the host operations write none. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats 0 c).arrAt_in 5 rfl _).trans ((hA c 5).trans (V_main_arg9 m c))),
      ((h c).2 main_arg10 (Pipeline.mem_restRefs_of main_arg10 (by decide) (by decide))).trans (V_main_arg10 m c),
      ((h c).1 7).trans (((dats 0 c).arrAt_in 7 rfl _).trans ((hA c 7).trans (V_main_arg11 m c))),
      ((h c).2 main_arg12 (Pipeline.mem_restRefs_of main_arg12 (by decide) (by decide))).trans (V_main_arg12 m c)⟩) h

end Cert.Kernel.Fr

end
-- ==== Proof.BitsFrameBody.lean ====
import proofs.«146510_j26671746908706_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes

Every access of the body is to a whole buffer: the rectangle at the origin whose extent is the buffer's own. -/

abbrev rIn0 : Rect S1x512x784 := Rect.unit (s := S1x512x784) ![0, 0, 0] S1x512x784.size inb_S1x512x784_S1x512x784_0_0_0
abbrev rIn1 : Rect S600x784 := Rect.unit (s := S600x784) ![0, 0] S600x784.size inb_S600x784_S600x784_0_0
abbrev rIn2 : Rect S1x600 := Rect.unit (s := S1x600) ![0, 0] S1x600.size inb_S1x600_S1x600_0_0
abbrev rIn3 : Rect S728x600 := Rect.unit (s := S728x600) ![0, 0] S728x600.size inb_S728x600_S728x600_0_0
abbrev rIn4 : Rect S1x728 := Rect.unit (s := S1x728) ![0, 0] S1x728.size inb_S1x728_S1x728_0_0
abbrev rIn5 : Rect S200x600 := Rect.unit (s := S200x600) ![0, 0] S200x600.size inb_S200x600_S200x600_0_0
abbrev rIn6 : Rect S1x200 := Rect.unit (s := S1x200) ![0, 0] S1x200.size inb_S1x200_S1x200_0_0
abbrev rIn7 : Rect S10x200 := Rect.unit (s := S10x200) ![0, 0] S10x200.size inb_S10x200_S10x200_0_0
abbrev rIn8 : Rect S1x10 := Rect.unit (s := S1x10) ![0, 0] S1x10.size inb_S1x10_S1x10_0_0
abbrev rOut : Rect S1x512x10 := Rect.unit (s := S1x512x10) ![0, 0, 0] S1x512x10.size inb_S1x512x10_S1x512x10_0_0_0

/-! ## What the body leaves in the two output buffers

The body reads the nine input buffers whole, computes the two result tiles (the thresholded spikes and the residual
membrane value), and writes each result buffer once, whole. So each output buffer ends as the single piece written
into it, as a function of the nine input blocks alone; what the buffer held before (which the body also reads, and
discards) does not matter. -/

/-- The first output buffer after the body, from the nine input blocks. -/
def out9 (x0 : Vec F S1x512x784 .f32) (x1 : Vec F S600x784 .f32) (x2 : Vec F S1x600 .f32) (x3 : Vec F S728x600 .bf16) (x4 : Vec F S1x728 .f32) (x5 : Vec F S200x600 .f32) (x6 : Vec F S1x200 .f32) (x7 : Vec F S10x200 .f32) (x8 : Vec F S1x10 .f32) : Vec F S1x512x10 .f32 :=
  View.canon [⟨rOut, k0_pay3 (k0_pay5 (View.ld x0 rIn0) (View.ld x1 rIn1) (View.ld x2 rIn2)) (k0_pay7 (View.ld x0 rIn0) (View.ld x1 rIn1) (View.ld x2 rIn2) (View.ld x3 rIn3) (View.ld x4 rIn4)) (k0_pay8 (View.ld x0 rIn0) (View.ld x1 rIn1) (View.ld x2 rIn2) (View.ld x3 rIn3) (View.ld x4 rIn4)) (constant S512x600 .f32 0x00000000#32) (View.ld x5 rIn5) (View.ld x6 rIn6) (View.ld x7 rIn7) (View.ld x8 rIn8)⟩]

/-- The second output buffer after the body, from the nine input blocks. -/
def out10 (x0 : Vec F S1x512x784 .f32) (x1 : Vec F S600x784 .f32) (x2 : Vec F S1x600 .f32) (x3 : Vec F S728x600 .bf16) (x4 : Vec F S1x728 .f32) (x5 : Vec F S200x600 .f32) (x6 : Vec F S1x200 .f32) (x7 : Vec F S10x200 .f32) (x8 : Vec F S1x10 .f32) : Vec F S1x512x10 .f32 :=
  View.canon [⟨rOut, k0_pay4 (k0_pay5 (View.ld x0 rIn0) (View.ld x1 rIn1) (View.ld x2 rIn2)) (k0_pay7 (View.ld x0 rIn0) (View.ld x1 rIn1) (View.ld x2 rIn2) (View.ld x3 rIn3) (View.ld x4 rIn4)) (k0_pay8 (View.ld x0 rIn0) (View.ld x1 rIn1) (View.ld x2 rIn2) (View.ld x3 rIn3) (View.ld x4 rIn4)) (constant S512x600 .f32 0x00000000#32) (View.ld x5 rIn5) (View.ld x6 rIn6) (View.ld x7 rIn7) (View.ld x8 rIn8)⟩]

/-- One whole-buffer piece covers every position of an output buffer. -/
theorem coverOut (p0 : Vec F S1x512x10 .f32) (y : S1x512x10.Idx) :
    ∃ pc ∈ ([⟨rOut, p0⟩] : List (View.Piece (Elt F) S1x512x10 .f32)), y ∈ pc.1.set :=
  View.cover_of_tiled [⟨rOut, p0⟩] S1x512x10.size (by rfl) y

/-! ## The body's triple -/

set_option maxHeartbeats 4000000 in
/-- Run on eleven whole buffers — the nine inputs holding `x0 … x8`, the two outputs holding anything — the body
    terminates without fault, leaves the inputs as they were, and leaves the outputs at `out9` and `out10` of the inputs. -/
theorem sound_kernel (c : Dev nD) (E : Set ℕ) (i : grid0.Coords) (arg1 : Memref sig .tc .vmem S1x512x784 .f32) (harg1 : arg1.IsWhole) (arg2 : Memref sig .tc .vmem S600x784 .f32) (harg2 : arg2.IsWhole) (arg3 : Memref sig .tc .vmem S1x600 .f32) (harg3 : arg3.IsWhole) (arg4 : Memref sig .tc .vmem S728x600 .bf16) (harg4 : arg4.IsWhole) (arg5 : Memref sig .tc .vmem S1x728 .f32) (harg5 : arg5.IsWhole) (arg6 : Memref sig .tc .vmem S200x600 .f32) (harg6 : arg6.IsWhole) (arg7 : Memref sig .tc .vmem S1x200 .f32) (harg7 : arg7.IsWhole) (arg8 : Memref sig .tc .vmem S10x200 .f32) (harg8 : arg8.IsWhole) (arg9 : Memref sig .tc .vmem S1x10 .f32) (harg9 : arg9.IsWhole) (arg10 : Memref sig .tc .vmem S1x512x10 .f32) (harg10 : arg10.IsWhole) (arg11 : Memref sig .tc .vmem S1x512x10 .f32) (harg11 : arg11.IsWhole)
    (x0 : Vec F S1x512x784 .f32) (x1 : Vec F S600x784 .f32) (x2 : Vec F S1x600 .f32) (x3 : Vec F S728x600 .bf16) (x4 : Vec F S1x728 .f32) (x5 : Vec F S200x600 .f32) (x6 : Vec F S1x200 .f32) (x7 : Vec F S10x200 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8) ∗ owns (c : Thread nD τ) arg11 fullShare (out10 x0 x1 x2 x3 x4 x5 x6 x7 x8)) -∗ K ⟨⟩))
      ⊢ wp frame (wpE (defs₀ (F := F)) Variants.none c none) E (cc0__asn_kernel i arg1 harg1 arg2 harg2 arg3 harg3 arg4 harg4 arg5 harg5 arg6 harg6 arg7 harg7 arg8 harg8 arg9 harg9 arg10 harg10 arg11 harg11) K := by
  simp only [cc0__asn_kernel_eq_skeleton]; unfold cc0__asn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverOut _)
  iexists _; isplitr
  swap; · iexact H10
  ipureintro
  exact View.read_writes_eq_canon _ _ _ (coverOut _)

end Cert.Kernel.Fr

end
-- ==== Proof.BitsFrame.lean ====
import proofs.«146510_j26671746908706_2_alg».proof.Proof.BitsFrameHost
import proofs.«146510_j26671746908706_2_alg».proof.Proof.BitsFrameBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the pipeline -/

/-- On core `c`: every window's array is what the region finds (`V`); after the body at point `t` an input's buffer
    still holds its block and the two outputs' buffers hold `out9` / `out10` of the nine input blocks; the body keeps
    no state of its own between points, so the invariant is the library's plain one; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The data's arrays are the region-entry contents (read off the definition, the host prefix left folded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at one grid point -/

/-- What the pipeline hands the body at point `t`: the invariant, the debt counter, and each window's current
    staging buffer at its `before` contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the pipeline expects back: the same, each buffer at its `after` contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body meets that contract at every point: the nine input buffers hold their blocks, so the body's triple applies
    with those blocks; the invariant and the debt counter are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch contents with zero counters, every fair execution of the entry function terminates, and in its
    final state each window's array holds what the library computes from the proof data, every other unscoped array
    what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The entry function runs to completion and all thirteen argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.IdealFrameHost.lean ====
import proofs.«146510_j26671746908706_2_alg».proof.Proof.Gen.KernelIdeal.Launch
import proofs.«146510_j26671746908706_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program before the region

The entry function first computes, with sixteen array operations (one of them inside a called function), the
operands the region stages that are not arguments themselves: the rescaled first weight matrix, the two
concatenations (one then narrowed to sixteen-bit floats), and four reshaped bias vectors. None of these operations
writes an argument array. -/

/-- The contents of core `c`'s arrays at the moment the region starts: the launch contents pushed through the three
    stretches of host operations in order. -/
abbrev V (c : Dev nD) (b : Ref sig .tc) : Buf (Elt F) ((c : Thread nD τ).loc b) :=
  StableHlo.after (List.flatten [hostOps0, hostOps0_1, hostOps0_2]) (fun b => m (c, b)) b

/-- No operation of the first stretch allocates. -/
theorem hostOps0_fresh : (hostOps0 : List (HloOp τ sig (Elt F))).Forall fun op => op.fresh = ∅ := by
  simp only [List.Forall]; repeat' constructor
/-- Nor does the select inside the called function. -/
theorem hostOps0_1_fresh : (hostOps0_1 : List (HloOp τ sig (Elt F))).Forall fun op => op.fresh = ∅ := by
  simp only [List.Forall]; repeat' constructor
/-- Nor any of the nine operations after it, the two three-operand concatenations included. -/
theorem hostOps0_2_fresh : (hostOps0_2 : List (HloOp τ sig (Elt F))).Forall fun op => op.fresh = ∅ := by
  simp only [List.Forall]; repeat' constructor

/-- The entry function is the three stretches followed by the region, so it reaches the region with the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- Nothing before the region writes argument 0: the region finds it as it was launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 1: the region finds it as it was launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 2: the region finds it as it was launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 3: the region finds it as it was launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 4: the region finds it as it was launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 5: the region finds it as it was launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 6: the region finds it as it was launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 7: the region finds it as it was launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 8: the region finds it as it was launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 9: the region finds it as it was launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 10: the region finds it as it was launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 11: the region finds it as it was launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nothing before the region writes argument 12: the region finds it as it was launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## Blocks -/

/-- The block of window `w` that belongs to grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: whatever the proof data, if its array is the region-entry one and the body leaves the block
    where it found it, the current staging buffer holds the window's block at every point — at a point with no fetch the
    block index is the previous point's, so the buffer still holds the right block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: whatever the proof data, if its array is the region-entry one and the body leaves the block
    where it found it, the current staging buffer holds the window's block at every point — at a point with no fetch the
    block index is the previous point's, so the buffer still holds the right block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: whatever the proof data, if its array is the region-entry one and the body leaves the block
    where it found it, the current staging buffer holds the window's block at every point — at a point with no fetch the
    block index is the previous point's, so the buffer still holds the right block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: whatever the proof data, if its array is the region-entry one and the body leaves the block
    where it found it, the current staging buffer holds the window's block at every point — at a point with no fetch the
    block index is the previous point's, so the buffer still holds the right block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: whatever the proof data, if its array is the region-entry one and the body leaves the block
    where it found it, the current staging buffer holds the window's block at every point — at a point with no fetch the
    block index is the previous point's, so the buffer still holds the right block. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: whatever the proof data, if its array is the region-entry one and the body leaves the block
    where it found it, the current staging buffer holds the window's block at every point — at a point with no fetch the
    block index is the previous point's, so the buffer still holds the right block. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: whatever the proof data, if its array is the region-entry one and the body leaves the block
    where it found it, the current staging buffer holds the window's block at every point — at a point with no fetch the
    block index is the previous point's, so the buffer still holds the right block. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7: whatever the proof data, if its array is the region-entry one and the body leaves the block
    where it found it, the current staging buffer holds the window's block at every point — at a point with no fetch the
    block index is the previous point's, so the buffer still holds the right block. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8: whatever the proof data, if its array is the region-entry one and the body leaves the block
    where it found it, the current staging buffer holds the window's block at every point — at a point with no fetch the
    block index is the previous point's, so the buffer still holds the right block. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the claim about the arguments -/

/-- If a run of the entry function ends in the pipeline library's final-state description (for any proof data whose
    arrays are the region-entry contents), then every argument array ends as launched: the three arguments the region
    stages as inputs are never written back, the other ten bypass the region, and the host operations write none. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats 0 c).arrAt_in 5 rfl _).trans ((hA c 5).trans (V_main_arg9 m c))),
      ((h c).2 main_arg10 (Pipeline.mem_restRefs_of main_arg10 (by decide) (by decide))).trans (V_main_arg10 m c),
      ((h c).1 7).trans (((dats 0 c).arrAt_in 7 rfl _).trans ((hA c 7).trans (V_main_arg11 m c))),
      ((h c).2 main_arg12 (Pipeline.mem_restRefs_of main_arg12 (by decide) (by decide))).trans (V_main_arg12 m c)⟩) h

end Cert.KernelIdeal.Fr

end
-- ==== Proof.IdealFrameBody.lean ====
import proofs.«146510_j26671746908706_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes

Every access of the body is to a whole buffer: the rectangle at the origin whose extent is the buffer's own. -/

abbrev rIn0 : Rect S1x512x784 := Rect.unit (s := S1x512x784) ![0, 0, 0] S1x512x784.size inb_S1x512x784_S1x512x784_0_0_0
abbrev rIn1 : Rect S600x784 := Rect.unit (s := S600x784) ![0, 0] S600x784.size inb_S600x784_S600x784_0_0
abbrev rIn2 : Rect S1x600 := Rect.unit (s := S1x600) ![0, 0] S1x600.size inb_S1x600_S1x600_0_0
abbrev rIn3 : Rect S728x600 := Rect.unit (s := S728x600) ![0, 0] S728x600.size inb_S728x600_S728x600_0_0
abbrev rIn4 : Rect S1x728 := Rect.unit (s := S1x728) ![0, 0] S1x728.size inb_S1x728_S1x728_0_0
abbrev rIn5 : Rect S200x600 := Rect.unit (s := S200x600) ![0, 0] S200x600.size inb_S200x600_S200x600_0_0
abbrev rIn6 : Rect S1x200 := Rect.unit (s := S1x200) ![0, 0] S1x200.size inb_S1x200_S1x200_0_0
abbrev rIn7 : Rect S10x200 := Rect.unit (s := S10x200) ![0, 0] S10x200.size inb_S10x200_S10x200_0_0
abbrev rIn8 : Rect S1x10 := Rect.unit (s := S1x10) ![0, 0] S1x10.size inb_S1x10_S1x10_0_0
abbrev rOut : Rect S1x512x10 := Rect.unit (s := S1x512x10) ![0, 0, 0] S1x512x10.size inb_S1x512x10_S1x512x10_0_0_0

/-! ## What the body leaves in the two output buffers

The body reads the nine input buffers whole, computes the two result tiles (the thresholded spikes and the residual
membrane value), and writes each result buffer once, whole. So each output buffer ends as the single piece written
into it, as a function of the nine input blocks alone; what the buffer held before (which the body also reads, and
discards) does not matter. -/

/-- The first output buffer after the body, from the nine input blocks. -/
def out9 (x0 : Vec F S1x512x784 .f32) (x1 : Vec F S600x784 .f32) (x2 : Vec F S1x600 .f32) (x3 : Vec F S728x600 .bf16) (x4 : Vec F S1x728 .f32) (x5 : Vec F S200x600 .f32) (x6 : Vec F S1x200 .f32) (x7 : Vec F S10x200 .f32) (x8 : Vec F S1x10 .f32) : Vec F S1x512x10 .f32 :=
  View.canon [⟨rOut, k0_pay3 (k0_pay5 (View.ld x0 rIn0) (View.ld x1 rIn1) (View.ld x2 rIn2)) (k0_pay7 (View.ld x0 rIn0) (View.ld x1 rIn1) (View.ld x2 rIn2) (View.ld x3 rIn3) (View.ld x4 rIn4)) (k0_pay8 (View.ld x0 rIn0) (View.ld x1 rIn1) (View.ld x2 rIn2) (View.ld x3 rIn3) (View.ld x4 rIn4)) (constant S512x600 .f32 0x00000000#32) (View.ld x5 rIn5) (View.ld x6 rIn6) (View.ld x7 rIn7) (View.ld x8 rIn8)⟩]

/-- The second output buffer after the body, from the nine input blocks. -/
def out10 (x0 : Vec F S1x512x784 .f32) (x1 : Vec F S600x784 .f32) (x2 : Vec F S1x600 .f32) (x3 : Vec F S728x600 .bf16) (x4 : Vec F S1x728 .f32) (x5 : Vec F S200x600 .f32) (x6 : Vec F S1x200 .f32) (x7 : Vec F S10x200 .f32) (x8 : Vec F S1x10 .f32) : Vec F S1x512x10 .f32 :=
  View.canon [⟨rOut, k0_pay4 (k0_pay5 (View.ld x0 rIn0) (View.ld x1 rIn1) (View.ld x2 rIn2)) (k0_pay7 (View.ld x0 rIn0) (View.ld x1 rIn1) (View.ld x2 rIn2) (View.ld x3 rIn3) (View.ld x4 rIn4)) (k0_pay8 (View.ld x0 rIn0) (View.ld x1 rIn1) (View.ld x2 rIn2) (View.ld x3 rIn3) (View.ld x4 rIn4)) (constant S512x600 .f32 0x00000000#32) (View.ld x5 rIn5) (View.ld x6 rIn6) (View.ld x7 rIn7) (View.ld x8 rIn8)⟩]

/-- One whole-buffer piece covers every position of an output buffer. -/
theorem coverOut (p0 : Vec F S1x512x10 .f32) (y : S1x512x10.Idx) :
    ∃ pc ∈ ([⟨rOut, p0⟩] : List (View.Piece (Elt F) S1x512x10 .f32)), y ∈ pc.1.set :=
  View.cover_of_tiled [⟨rOut, p0⟩] S1x512x10.size (by rfl) y

/-! ## The body's triple -/

set_option maxHeartbeats 4000000 in
/-- Run on eleven whole buffers — the nine inputs holding `x0 … x8`, the two outputs holding anything — the body
    terminates without fault, leaves the inputs as they were, and leaves the outputs at `out9` and `out10` of the inputs. -/
theorem sound_kernel (c : Dev nD) (E : Set ℕ) (i : grid0.Coords) (arg1 : Memref sig .tc .vmem S1x512x784 .f32) (harg1 : arg1.IsWhole) (arg2 : Memref sig .tc .vmem S600x784 .f32) (harg2 : arg2.IsWhole) (arg3 : Memref sig .tc .vmem S1x600 .f32) (harg3 : arg3.IsWhole) (arg4 : Memref sig .tc .vmem S728x600 .bf16) (harg4 : arg4.IsWhole) (arg5 : Memref sig .tc .vmem S1x728 .f32) (harg5 : arg5.IsWhole) (arg6 : Memref sig .tc .vmem S200x600 .f32) (harg6 : arg6.IsWhole) (arg7 : Memref sig .tc .vmem S1x200 .f32) (harg7 : arg7.IsWhole) (arg8 : Memref sig .tc .vmem S10x200 .f32) (harg8 : arg8.IsWhole) (arg9 : Memref sig .tc .vmem S1x10 .f32) (harg9 : arg9.IsWhole) (arg10 : Memref sig .tc .vmem S1x512x10 .f32) (harg10 : arg10.IsWhole) (arg11 : Memref sig .tc .vmem S1x512x10 .f32) (harg11 : arg11.IsWhole)
    (x0 : Vec F S1x512x784 .f32) (x1 : Vec F S600x784 .f32) (x2 : Vec F S1x600 .f32) (x3 : Vec F S728x600 .bf16) (x4 : Vec F S1x728 .f32) (x5 : Vec F S200x600 .f32) (x6 : Vec F S1x200 .f32) (x7 : Vec F S10x200 .f32) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8) ∗ owns (c : Thread nD τ) arg11 fullShare (out10 x0 x1 x2 x3 x4 x5 x6 x7 x8)) -∗ K ⟨⟩))
      ⊢ wp frame (wpE (defs₀ (F := F)) Variants.none c none) E (cc0__asn_kernel i arg1 harg1 arg2 harg2 arg3 harg3 arg4 harg4 arg5 harg5 arg6 harg6 arg7 harg7 arg8 harg8 arg9 harg9 arg10 harg10 arg11 harg11) K := by
  simp only [cc0__asn_kernel_eq_skeleton]; unfold cc0__asn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverOut _)
  iexists _; isplitr
  swap; · iexact H10
  ipureintro
  exact View.read_writes_eq_canon _ _ _ (coverOut _)

end Cert.KernelIdeal.Fr

end
-- ==== Proof.IdealFrame.lean ====
import proofs.«146510_j26671746908706_2_alg».proof.Proof.IdealFrameHost
import proofs.«146510_j26671746908706_2_alg».proof.Proof.IdealFrameBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the pipeline -/

/-- On core `c`: every window's array is what the region finds (`V`); after the body at point `t` an input's buffer
    still holds its block and the two outputs' buffers hold `out9` / `out10` of the nine input blocks; the body keeps
    no state of its own between points, so the invariant is the library's plain one; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The data's arrays are the region-entry contents (read off the definition, the host prefix left folded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at one grid point -/

/-- What the pipeline hands the body at point `t`: the invariant, the debt counter, and each window's current
    staging buffer at its `before` contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the pipeline expects back: the same, each buffer at its `after` contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body meets that contract at every point: the nine input buffers hold their blocks, so the body's triple applies
    with those blocks; the invariant and the debt counter are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch contents with zero counters, every fair execution of the entry function terminates, and in its
    final state each window's array holds what the library computes from the proof data, every other unscoped array
    what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The entry function runs to completion and all thirteen argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.Spec.lean ====
/-
  The function both programs compute, batch by batch, on the extended reals.

  One batch is a matrix X of 512 rows (positions) and 784 columns. With the input scale sc (1/255 or 1, one number for
  the whole input) and the weights of five affine maps, a batch goes through:
    embed(s,o)  = Σ_i X(s,i) · (We(o,i) · sc) + be(o)             a spike layer: spk1 = [embed > 1/2]
    Q, K, V     = spk1 · Wqᵀ + bq,  spk1 · Wkᵀ + bk,  spk1 · Wvᵀ + bv
    score(s,t)  = (Σ_q Q(s,q) · K(t,q)) · (1/8)
    attn(s,t)   = exp(score(s,t) − max_t score(s,·)) / Σ_t exp(score(s,t) − max_t score(s,·))      (a row softmax)
    in2(s,d)    = Σ_t attn(s,t) · V(t,d) + spk1(s,d)
    cur2(s,h)   = Σ_d in2(s,d) · W2(h,d) + b2(h),   spk2 = [cur2 > 3/10]
    cur3(s,o)   = Σ_h spk2(s,h) · W3(o,h) + b3(o),  spk3 = [cur3 > 3/10],   mem3 = cur3 − spk3 · (3/10)
  and the two results are spk3 and mem3. The thresholds and the factor 1/8 are kept as the float words the programs
  spell (the same word on both sides is never evaluated). [a > b] is the comparison's bit read as the number 0 or 1.
-/
import Idealize.ShloMosaic.PureOps.Ideal
import Idealize.ShloMosaic.Lib.ValueIdx

noncomputable section

open scoped BigOperators

namespace Cert.Spec

open Idealize.ShloMosaic

/-- The weights, and the input scale, as functions of coordinates. -/
structure Params where
  sc : EReal
  We : Fin 600 → Fin 784 → EReal
  be : Fin 600 → EReal
  Wq : Fin 64 → Fin 600 → EReal
  bq : Fin 64 → EReal
  Wk : Fin 64 → Fin 600 → EReal
  bk : Fin 64 → EReal
  Wv : Fin 600 → Fin 600 → EReal
  bv : Fin 600 → EReal
  W2 : Fin 200 → Fin 600 → EReal
  b2 : Fin 200 → EReal
  W3 : Fin 10 → Fin 200 → EReal
  b3 : Fin 10 → EReal

/-- [a > b] as the extended real 0 or 1: the comparison's bit read as a natural number. -/
def ind (a b : EReal) : EReal := (((Ideal.cmp .ogt a b).toNat : ℝ) : EReal)

/-- The threshold 1/2, the threshold 3/10 (its float word) and the factor 1/8, as the programs spell them. -/
def half : EReal := Ideal.ofBits .f32 0x3F000000#32
def thr : EReal := Ideal.ofBits .f32 0x3E99999A#32
def eighth : EReal := Ideal.ofBits .f32 0x3E000000#32

variable (P : Params) (X : Fin 512 → Fin 784 → EReal)

def embed (s : Fin 512) (o : Fin 600) : EReal := (∑ i : Fin 784, X s i * (P.We o i * P.sc)) + P.be o
def spk1 (s : Fin 512) (d : Fin 600) : EReal := ind (embed P X s d) half
def Q (s : Fin 512) (q : Fin 64) : EReal := (∑ d : Fin 600, spk1 P X s d * P.Wq q d) + P.bq q
def K (s : Fin 512) (q : Fin 64) : EReal := (∑ d : Fin 600, spk1 P X s d * P.Wk q d) + P.bk q
def V (s : Fin 512) (v : Fin 600) : EReal := (∑ d : Fin 600, spk1 P X s d * P.Wv v d) + P.bv v
def score (s t : Fin 512) : EReal := (∑ q : Fin 64, Q P X s q * K P X t q) * eighth
def rowMax (s : Fin 512) : EReal := (Finset.univ : Finset (Fin 512)).fold max ⊥ (fun t => score P X s t)
def ex (s t : Fin 512) : EReal := Ideal.exp (score P X s t - rowMax P X s)
def rowSum (s : Fin 512) : EReal := ∑ t : Fin 512, ex P X s t
def attn (s t : Fin 512) : EReal := Ideal.div (ex P X s t) (rowSum P X s)
def in2 (s : Fin 512) (d : Fin 600) : EReal := (∑ t : Fin 512, attn P X s t * V P X t d) + spk1 P X s d
def cur2 (s : Fin 512) (h : Fin 200) : EReal := (∑ d : Fin 600, in2 P X s d * P.W2 h d) + P.b2 h
def spk2 (s : Fin 512) (h : Fin 200) : EReal := ind (cur2 P X s h) thr
def cur3 (s : Fin 512) (o : Fin 10) : EReal := (∑ h : Fin 200, spk2 P X s h * P.W3 o h) + P.b3 o
def spk3 (s : Fin 512) (o : Fin 10) : EReal := ind (cur3 P X s o) thr
def mem3 (s : Fin 512) (o : Fin 10) : EReal := cur3 P X s o - spk3 P X s o * thr

/-! ## From the argument arrays -/

open Idealize.ShloMosaic.ValueIdx

/-- The weights read off the argument arrays (each an array of extended reals over its literal shape). -/
def paramsOf (sc : EReal)
    (we : (⟨2, ![600, 784]⟩ : Shape).Idx → EReal) (be : (⟨1, ![600]⟩ : Shape).Idx → EReal)
    (wq : (⟨2, ![64, 600]⟩ : Shape).Idx → EReal) (bq : (⟨1, ![64]⟩ : Shape).Idx → EReal)
    (wk : (⟨2, ![64, 600]⟩ : Shape).Idx → EReal) (bk : (⟨1, ![64]⟩ : Shape).Idx → EReal)
    (wv : (⟨2, ![600, 600]⟩ : Shape).Idx → EReal) (bv : (⟨1, ![600]⟩ : Shape).Idx → EReal)
    (w2 : (⟨2, ![200, 600]⟩ : Shape).Idx → EReal) (b2 : (⟨1, ![200]⟩ : Shape).Idx → EReal)
    (w3 : (⟨2, ![10, 200]⟩ : Shape).Idx → EReal) (b3 : (⟨1, ![10]⟩ : Shape).Idx → EReal) : Params where
  sc := sc
  We o i := we (ix2 o i)
  be o := be (ix1 o)
  Wq q d := wq (ix2 q d)
  bq q := bq (ix1 q)
  Wk q d := wk (ix2 q d)
  bk q := bk (ix1 q)
  Wv v d := wv (ix2 v d)
  bv v := bv (ix1 v)
  W2 h d := w2 (ix2 h d)
  b2 h := b2 (ix1 h)
  W3 o h := w3 (ix2 o h)
  b3 o := b3 (ix1 o)

/-- Batch b of the input array, as a matrix. -/
def batch (x : (⟨3, ![64, 512, 784]⟩ : Shape).Idx → EReal) (b : Fin 64) : Fin 512 → Fin 784 → EReal :=
  fun s i => x (ix3 b s i)

/-- The first result, as one whole-array function of the scale and the argument arrays: the spikes of the last layer. -/
def outSpk (P : Params) (x : (⟨3, ![64, 512, 784]⟩ : Shape).Idx → EReal) : (⟨3, ![64, 512, 10]⟩ : Shape).Idx → EReal :=
  fun j => spk3 P (batch x (j 0)) (j 1) (j 2)

/-- The second result: the last layer's membrane after the reset. -/
def outMem (P : Params) (x : (⟨3, ![64, 512, 784]⟩ : Shape).Idx → EReal) : (⟨3, ![64, 512, 10]⟩ : Shape).Idx → EReal :=
  fun j => mem3 P (batch x (j 0)) (j 1) (j 2)

end Cert.Spec

/-! ## The comparison's bit as a number, both ways a program converts it -/

namespace Cert.Spec

open Idealize.ShloMosaic

/-- A one-bit word widened to 32 bits and read signed is the bit read as a natural number. -/
theorem toInt_setWidth_one (c : BitVec 1) : ((c.setWidth 32).toInt : ℝ) = (c.toNat : ℝ) := by
  have h : c = 0#1 ∨ c = 1#1 := by
    have := c.isLt
    rcases Nat.lt_or_ge c.toNat 1 with h0 | h1
    · left; exact BitVec.eq_of_toNat_eq (by simp; omega)
    · right; exact BitVec.eq_of_toNat_eq (by simp; omega)
  rcases h with rfl | rfl <;> simp

/-- The kernel's spelling of [a > b]: the bit widened to a 32-bit word, read signed. -/
theorem ind_signed (a b : EReal) :
    (FloatOps.sitofp (F := Ideal) .f32 ((FloatOps.cmpf (F := Ideal) (φ := .f32) .ogt a b).setWidth 32)) = ind a b := by
  show (((((Ideal.cmp .ogt a b).setWidth 32).toInt : ℝ)) : EReal) = _
  rw [toInt_setWidth_one]; rfl

/-- The host's spelling of [a > b]: the bit read unsigned. -/
theorem ind_unsigned (a b : EReal) :
    (FloatOps.uitofp (F := Ideal) .f32 (FloatOps.cmpf (F := Ideal) (φ := .f32) .ogt a b)) = ind a b := rfl

end Cert.Spec

end
-- ==== Proof.LibProductAtT.lean ====
/-
  A matrix product whose right factor is used transposed, read at an index.

  Dimension numbers of a product [A, K] × [B, K] → [A, B] that contract axis 1 of BOTH factors, with no batch axis, index
  the two factors at the result index (p, q) and the contraction index k by (p, k) and (q, k). So any sum over the
  contraction index — a tile product into an accumulator, a host dot_general — is the sum over k < K of
  l (p, k) · r (q, k): it reads row p of the left factor and ROW q of the right one (x · Wᵀ with W stored [out, in]).
  General: nothing here depends on a particular program. An instance supplies the two kept coordinates (hl0, hr0: each
  is "unfold DotDims.lhsIdx; rw [dif_neg …, dif_pos …]; rfl" for literal dimension numbers) and rfl four times.
-/
import Idealize.ShloMosaic.Lib.ValueIdx
import Idealize.ShloMosaic.PureOps.Ideal.Laws

noncomputable section

namespace Cert.LibProductAtT

open Idealize.ShloMosaic Idealize.ShloMosaic.ValueIdx

/-- THE SUM, RE-INDEXED. Dimension numbers that contract axis 1 of both factors and keep axis 0 of the left factor as
    the result's rows and axis 0 of the right factor as its columns (hl0, hr0): the sum over the contraction index is
    the sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    ∑ c : d.contr.Idx, l (d.lhsIdx (ix2 p q) c) * r (d.rhsIdx (ix2 p q) c) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 _ _
      | ⟨1, _⟩ => exact (d.lhsIdx_val_of_single hlc _ _).trans hk)
  have er : d.rhsIdx (ix2 p q) ((contrEquiv1 d K hr hs).symm k) = ix2 q k :=
    funext fun a => Fin.ext (by
      match a with
      | ⟨0, _⟩ => exact hr0 _ _
      | ⟨1, _⟩ => exact (d.rhsIdx_val_of_single hrc _ _).trans hk)
  rw [el, er]

/-- A tile product into an accumulator, at (p, q): acc (p, q) + Σ_k l (p, k) · r (q, k). -/
theorem matmul_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂)
    (acc : FVec Ideal (⟨2, ![A, B]⟩ : Shape) .f32) (p : Fin A) (q : Fin B) :
    FloatOps.matmul d prec l r acc (ix2 p q) = acc (ix2 p q) + ∑ k : Fin K, l (ix2 p k) * r (ix2 q k) := by
  rw [Ideal.matmul_apply, product_sum_eq d hr hs hlc hrc hl0 hr0]

/-- A tile product into the zero accumulator, at (p, q): Σ_k l (p, k) · r (q, k). -/
theorem matmul_zero_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, product_sum_eq d hr hs hlc hrc hl0 hr0]

/-- A host dot_general with these dimension numbers, at (p, q): Σ_k l (p, k) · r (q, k). -/
theorem dotGeneral_apply {A B K : Nat} {φ₁ φ₂ : FTy}
    (d : DotDims (⟨2, ![A, K]⟩ : Shape) (⟨2, ![B, K]⟩ : Shape) (⟨2, ![A, B]⟩ : Shape)) (prec : Option ContractPrecision)
    (sched : HostSchedule)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.dotGeneral d prec sched l r (ix2 p q) = ∑ k : Fin K, l (ix2 p k) * r (ix2 q k) := by
  rw [Ideal.dotGeneral_apply, product_sum_eq d hr hs hlc hrc hl0 hr0]

end Cert.LibProductAtT

end
-- ==== Proof.LibProductRows.lean ====
/-
  A product of two matrices [A, K] × [B, K] → [A, B] whose dimension numbers contract axis 1 of BOTH factors — no batch
  axis, the kept axes the left factor's rows and the right factor's ROWS (the right factor used transposed, x · Wᵀ) —
  read at an entry (p, q): into the zero accumulator it is Σ_k l(p,k) · r(q,k). The two facts a reading needs about the
  kept coordinates (the left factor is read in row p, the right factor in row q) are proved here once from the dimension
  numbers' lists, for any record with those lists.
  General: nothing here depends on a particular program.
-/
import proofs.«146510_j26671746908706_2_alg».proof.Proof.LibProductAtT

noncomputable section

open scoped BigOperators

namespace Cert.LibProductRows

open Idealize.ShloMosaic Idealize.ShloMosaic.ValueIdx

variable {A B K : Nat}

/-- The left factor is read in the row of the result's entry. -/
theorem lhs_row (d : DotDims (⟨2, ![A, K]⟩ : Shape) (⟨2, ![B, K]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the row named by the result entry's column. -/
theorem rhs_row (d : DotDims (⟨2, ![A, K]⟩ : Shape) (⟨2, ![B, K]⟩ : Shape) (⟨2, ![A, B]⟩ : Shape))
    (hlb : d.lhsBatch = []) (hln : d.lhsNonContracting = [(0 : Fin 2)])
    (hrb : d.rhsBatch = []) (hrn : d.rhsNonContracting = [(0 : Fin 2)])
    (j : (⟨2, ![A, B]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- Such a product into the zero accumulator, at (p, q). -/
theorem matmul_zero_at {φ₁ φ₂ : FTy} (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hlb : d.lhsBatch = []) (hln : d.lhsNonContracting = [(0 : Fin 2)])
    (hrb : d.rhsBatch = []) (hrn : d.rhsNonContracting = [(0 : Fin 2)])
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) :=
  Cert.LibProductAtT.matmul_zero_apply d prec hr hs hlc hrc (lhs_row d hlb hln) (rhs_row d hlb hln hrb hrn) l r p q

end Cert.LibProductRows

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«146510_j26671746908706_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerStagesA.lean ====
import proofs.«146510_j26671746908706_2_alg».proof.Proof.Gen.KernelIdeal.Skeleton
import proofs.«146510_j26671746908706_2_alg».proof.Proof.Spec
import proofs.«146510_j26671746908706_2_alg».proof.Proof.LibProductRows
import proofs.«146510_j26671746908706_2_alg».proof.Proof.LibPlainDot
import proofs.«146510_j26671746908706_2_alg».proof.Proof.LibColumn
import proofs.«146510_j26671746908706_2_alg».proof.Proof.LibLayout
import Idealize.ShloMosaic.Lib.ValueLayout
import Idealize.ShloMosaic.Lib.Pipeline.Value
import Idealize.ShloMosaic.PureOps.Ideal.Laws

noncomputable section

open scoped BigOperators

namespace Cert.KerSpec

open Cert.KernelIdeal Cert.KernelIdeal.Gen Idealize.ShloMosaic Idealize.ShloMosaic.ValueIdx Cert.Spec

/-! The kernel body's named values, read at an entry, against the specification: the first spike layer and the fused
    projection. The nine blocks the body loads are variables; what they hold is stated entry by entry. -/

/-- What the nine blocks the body loads hold, entry by entry, for one batch: the batch's matrix X; the embedding weights
    already multiplied by the input scale; the bias rows; the three projection weights stacked into one matrix of
    728 = 64 + 64 + 600 rows and their biases joined into one row; the last two layers' weights and bias rows. -/
structure Blocks (P : Params) (X : Fin 512 → Fin 784 → EReal)
    (x0 : Vec Ideal S1x512x784 .f32) (x1 : Vec Ideal S600x784 .f32) (x2 : Vec Ideal S1x600 .f32)
    (x3 : Vec Ideal S728x600 .bf16) (x4 : Vec Ideal S1x728 .f32) (x5 : Vec Ideal S200x600 .f32)
    (x6 : Vec Ideal S1x200 .f32) (x7 : Vec Ideal S10x200 .f32) (x8 : Vec Ideal S1x10 .f32) : Prop where
  h0 : ∀ (s : Fin 512) (i : Fin 784), x0 (ix3 (0 : Fin 1) s i) = X s i
  h1 : ∀ (o : Fin 600) (i : Fin 784), x1 (ix2 o i) = P.We o i * P.sc
  h2 : ∀ o : Fin 600, x2 (ix2 (0 : Fin 1) o) = P.be o
  h3q : ∀ (q : Fin 64) (d : Fin 600) (j : Fin 728), j.val = q.val → x3 (ix2 j d) = P.Wq q d
  h3k : ∀ (q : Fin 64) (d : Fin 600) (j : Fin 728), j.val = 64 + q.val → x3 (ix2 j d) = P.Wk q d
  h3v : ∀ (v : Fin 600) (d : Fin 600) (j : Fin 728), j.val = 128 + v.val → x3 (ix2 j d) = P.Wv v d
  h4q : ∀ (q : Fin 64) (j : Fin 728), j.val = q.val → x4 (ix2 (0 : Fin 1) j) = P.bq q
  h4k : ∀ (q : Fin 64) (j : Fin 728), j.val = 64 + q.val → x4 (ix2 (0 : Fin 1) j) = P.bk q
  h4v : ∀ (v : Fin 600) (j : Fin 728), j.val = 128 + v.val → x4 (ix2 (0 : Fin 1) j) = P.bv v
  h5 : ∀ (h : Fin 200) (d : Fin 600), x5 (ix2 h d) = P.W2 h d
  h6 : ∀ h : Fin 200, x6 (ix2 (0 : Fin 1) h) = P.b2 h
  h7 : ∀ (o : Fin 10) (h : Fin 200), x7 (ix2 o h) = P.W3 o h
  h8 : ∀ o : Fin 10, x8 (ix2 (0 : Fin 1) o) = P.b3 o

variable (P : Params) (X : Fin 512 → Fin 784 → EReal)

/-- The first spike layer: [x · (We·sc)ᵀ + be > 1/2] at (s, d). -/
theorem spk1_at (x0 : Vec Ideal S1x512x784 .f32) (x1 : Vec Ideal S600x784 .f32) (x2 : Vec Ideal S1x600 .f32)
    (h0 : ∀ (s : Fin 512) (i : Fin 784), x0 (ix3 (0 : Fin 1) s i) = X s i)
    (h1 : ∀ (o : Fin 600) (i : Fin 784), x1 (ix2 o i) = P.We o i * P.sc)
    (h2 : ∀ o : Fin 600, x2 (ix2 (0 : Fin 1) o) = P.be o)
    (s : Fin 512) (d : Fin 600) :
    k0_pay5 (F := Ideal) x0 x1 x2 (ix2 s d) = spk1 P X s d := by
  unfold k0_pay5
  refine (ind_signed _ _).trans ?_
  unfold spk1 embed
  refine congrArg₂ ind ?_ rfl
  refine congrArg₂ (· + ·) ?_ ?_
  · refine (Cert.LibProductRows.matmul_zero_at dot_S512x784_S600x784_S512x600_1_1_0_0_n_n rfl rfl rfl rfl rfl rfl rfl rfl (some .fp32) _ _ s d).trans ?_
    refine Finset.sum_congr rfl fun k _ => ?_
    rw [shapeCast_1ab_ab_apply, shapeCast_self, h0, h1]
  · refine (broadcastTo_1b_ab_apply _ _ s d).trans ?_
    rw [shapeCast_self, h2]

/-- The fused projection at (s, j): the spikes of row s against row j of the stacked weights, plus entry j of the
    joined bias. -/
theorem qkv_at (x0 : Vec Ideal S1x512x784 .f32) (x1 : Vec Ideal S600x784 .f32) (x2 : Vec Ideal S1x600 .f32)
    (x3 : Vec Ideal S728x600 .bf16) (x4 : Vec Ideal S1x728 .f32)
    (h0 : ∀ (s : Fin 512) (i : Fin 784), x0 (ix3 (0 : Fin 1) s i) = X s i)
    (h1 : ∀ (o : Fin 600) (i : Fin 784), x1 (ix2 o i) = P.We o i * P.sc)
    (h2 : ∀ o : Fin 600, x2 (ix2 (0 : Fin 1) o) = P.be o)
    (s : Fin 512) (j : Fin 728) :
    k0_pay6 (F := Ideal) x0 x1 x2 x3 x4 (ix2 s j)
      = (∑ d : Fin 600, spk1 P X s d * x3 (ix2 j d)) + x4 (ix2 (0 : Fin 1) j) := by
  unfold k0_pay6
  refine congrArg₂ (· + ·) ?_ ?_
  · refine (Cert.LibProductRows.matmul_zero_at dot_S512x600_S728x600_S512x728_1_1_0_0_n_n rfl rfl rfl rfl rfl rfl rfl rfl none _ _ s j).trans ?_
    refine Finset.sum_congr rfl fun k _ => ?_
    rw [shapeCast_self]
    exact congrArg₂ (· * ·) (spk1_at P X x0 x1 x2 h0 h1 h2 s k) rfl
  · refine (broadcastTo_1b_ab_apply _ _ s j).trans ?_
    rw [shapeCast_self]

end Cert.KerSpec
end
-- ==== Proof.KerStagesB.lean ====
import proofs.«146510_j26671746908706_2_alg».proof.Proof.KerStagesA

noncomputable section

open scoped BigOperators

namespace Cert.KerSpec

open Cert.KernelIdeal Cert.KernelIdeal.Gen Idealize.ShloMosaic Idealize.ShloMosaic.ValueIdx Cert.Spec

/-! The row softmax of the kernel body, read at an entry. The body's value from the fused projection y on is cut into
    named pieces (the scaled scores, their row maximum, the exponentials, their row sum); each piece is read at an entry
    from what y holds in its first 64 columns (the queries) and its next 64 (the keys). -/

variable (P : Params) (X : Fin 512 → Fin 784 → EReal)

/-- The scaled scores Q·Kᵀ·(1/8) as the body computes them from the fused projection y. -/
def kScore (y : FVec Ideal S512x728 .f32) : FVec Ideal S512x512 .f32 :=
  mulf (matmul dot_S512x64_S512x64_S512x512_1_1_0_0_n_n none
      (truncf .bf16 (extractStridedSlice S512x64 ![0, 0] y slices_S512x728_o0_0_S512x64) bitsLt_bf16_f32)
      (truncf .bf16 (extractStridedSlice S512x64 ![0, 64] y slices_S512x728_o0_64_S512x64) bitsLt_bf16_f32)
      (constant S512x512 .f32 0x00000000#32))
    (broadcast S512x512 (Scalar.ofBits .f32 0x3E000000#32))

/-- The row maxima of the scores, from -inf. -/
def kMax (y : FVec Ideal S512x728 .f32) : FVec Ideal S512 .f32 :=
  multiReduction .maximumf [1] S512 (kScore y) 0xFF800000#32 reduces_S512x512_S512 (.inl rfl) rfl

/-- exp(score − row maximum). -/
def kExp (y : FVec Ideal S512x728 .f32) : FVec Ideal S512x512 .f32 :=
  exp (subf (kScore y) (broadcastTo S512x512 (shapeCast S512x1 (kMax y) shapeCasts_S512_S512x1) broadcasts_S512x1_S512x512))

/-- The row sums of the exponentials. -/
def kSum (y : FVec Ideal S512x728 .f32) : FVec Ideal S512 .f32 :=
  multiReduction .add [1] S512 (kExp y) 0x00000000#32 reduces_S512x512_S512 (.inl rfl) rfl

/-- The body's attention weights are the exponentials over their row sums. -/
theorem pay7_eq (x0 : Vec Ideal S1x512x784 .f32) (x1 : Vec Ideal S600x784 .f32) (x2 : Vec Ideal S1x600 .f32)
    (x3 : Vec Ideal S728x600 .bf16) (x4 : Vec Ideal S1x728 .f32) :
    k0_pay7 (F := Ideal) x0 x1 x2 x3 x4
      = truncf .bf16 (divf (kExp (k0_pay6 x0 x1 x2 x3 x4))
          (broadcastTo S512x512 (shapeCast S512x1 (kSum (k0_pay6 x0 x1 x2 x3 x4)) shapeCasts_S512_S512x1) broadcasts_S512x1_S512x512))
          bitsLt_bf16_f32 := rfl

/-- The f32 word of -inf is the bottom of the extended reals. -/
theorem neg_inf_word : (FloatOps.ofBits (F := Ideal) .f32 0xFF800000#32 : EReal) = ⊥ := by
  simp [Ideal.ofBits, Ideal.ieee]

/-- Entry t of row s: the index a reduction over the columns inserts into the row's index. -/
theorem lift_row (s t : Fin 512) : reduces_S512x512_S512.lift (ix1 s) t = ix2 s t :=
  funext fun a => Fin.ext (by match a with | ⟨0, _⟩ => rfl | ⟨1, _⟩ => rfl)

section
variable (y : FVec Ideal S512x728 .f32)
    (hq : ∀ (s : Fin 512) (q : Fin 64) (j : Fin 728), j.val = q.val → y (ix2 s j) = Q P X s q)
    (hk : ∀ (s : Fin 512) (q : Fin 64) (j : Fin 728), j.val = 64 + q.val → y (ix2 s j) = K P X s q)

include hq hk

theorem score_at (s t : Fin 512) : kScore y (ix2 s t) = score P X s t := by
  unfold kScore score
  refine congrArg₂ (· * ·) ?_ rfl
  refine (Cert.LibProductRows.matmul_zero_at dot_S512x64_S512x64_S512x512_1_1_0_0_n_n rfl rfl rfl rfl rfl rfl rfl rfl none _ _ s t).trans ?_
  refine Finset.sum_congr rfl fun q _ => ?_
  refine congrArg₂ (· * ·) ?_ ?_
  · refine (slice2_axis1_apply 0 y slices_S512x728_o0_0_S512x64 s q ⟨q.val, by have := q.isLt; omega⟩ (Nat.zero_add _).symm).trans ?_
    exact hq s q _ rfl
  · refine (slice2_axis1_apply 64 y slices_S512x728_o0_64_S512x64 t q ⟨64 + q.val, by have := q.isLt; omega⟩ rfl).trans ?_
    exact hk t q _ rfl

theorem max_at (s : Fin 512) : kMax y (ix1 s) = rowMax P X s := by
  unfold kMax rowMax
  refine (Ideal.multiReduction_maximumf_single (kScore y) 0xFF800000#32 reduces_S512x512_S512 (.inl rfl) rfl (ix1 s)).trans ?_
  rw [neg_inf_word]
  refine congrArg (Finset.fold max ⊥ · Finset.univ) (funext fun (t : Fin 512) => ?_)
  exact (congrArg (kScore y) (lift_row s t)).trans (score_at P X y hq hk s t)

theorem exp_at (s t : Fin 512) : kExp y (ix2 s t) = ex P X s t := by
  unfold kExp ex
  show Ideal.exp (kScore y (ix2 s t) - broadcastTo S512x512 (shapeCast S512x1 (kMax y) shapeCasts_S512_S512x1) broadcasts_S512x1_S512x512 (ix2 s t)) = _
  rw [score_at P X y hq hk, broadcastTo_a1_ab_apply, shapeCast_a_a1_apply, max_at P X y hq hk]

theorem sum_at (s : Fin 512) : kSum y (ix1 s) = rowSum P X s := by
  unfold kSum rowSum
  refine (Ideal.multiReduction_add_single (kExp y) 0x00000000#32 reduces_S512x512_S512 (.inl rfl) rfl (ix1 s)).trans ?_
  refine Finset.sum_congr rfl fun (t : Fin 512) _ => ?_
  exact (congrArg (kExp y) (lift_row s t)).trans (exp_at P X y hq hk s t)

theorem attn_of (s t : Fin 512) :
    (truncf .bf16 (divf (kExp y)
          (broadcastTo S512x512 (shapeCast S512x1 (kSum y) shapeCasts_S512_S512x1) broadcasts_S512x1_S512x512))
          bitsLt_bf16_f32 : FVec Ideal S512x512 .bf16) (ix2 s t) = attn P X s t := by
  unfold attn
  show Ideal.div (kExp y (ix2 s t)) (broadcastTo S512x512 (shapeCast S512x1 (kSum y) shapeCasts_S512_S512x1) broadcasts_S512x1_S512x512 (ix2 s t)) = _
  rw [exp_at P X y hq hk, broadcastTo_a1_ab_apply, shapeCast_a_a1_apply, sum_at P X y hq hk]

end

end Cert.KerSpec
end
-- ==== Proof.KerFinal.lean ====
import proofs.«146510_j26671746908706_2_alg».proof.Proof.KerStagesB

noncomputable section

open scoped BigOperators

namespace Cert.KerSpec

open Cert.KernelIdeal Cert.KernelIdeal.Gen Idealize.ShloMosaic Idealize.ShloMosaic.ValueIdx Cert.Spec

/-! The rest of the kernel body read at an entry: the value rows, the second and third layers, and the two stored
    values, each against the specification. -/

variable (P : Params) (X : Fin 512 → Fin 784 → EReal)
variable (x0 : Vec Ideal S1x512x784 .f32) (x1 : Vec Ideal S600x784 .f32) (x2 : Vec Ideal S1x600 .f32)
    (x3 : Vec Ideal S728x600 .bf16) (x4 : Vec Ideal S1x728 .f32) (x5 : Vec Ideal S200x600 .f32)
    (x6 : Vec Ideal S1x200 .f32) (x7 : Vec Ideal S10x200 .f32) (x8 : Vec Ideal S1x10 .f32)

/-- Columns 0–63 of the fused projection are the queries. -/
theorem proj_q (hb : Blocks P X x0 x1 x2 x3 x4 x5 x6 x7 x8) (s : Fin 512) (q : Fin 64) (j : Fin 728) (hj : j.val = q.val) :
    k0_pay6 (F := Ideal) x0 x1 x2 x3 x4 (ix2 s j) = Q P X s q := by
  rw [qkv_at P X x0 x1 x2 x3 x4 hb.h0 hb.h1 hb.h2]
  unfold Q
  exact congrArg₂ (· + ·) (Finset.sum_congr rfl fun d _ => by rw [hb.h3q q d j hj]) (hb.h4q q j hj)

/-- Columns 64–127 are the keys. -/
theorem proj_k (hb : Blocks P X x0 x1 x2 x3 x4 x5 x6 x7 x8) (s : Fin 512) (q : Fin 64) (j : Fin 728) (hj : j.val = 64 + q.val) :
    k0_pay6 (F := Ideal) x0 x1 x2 x3 x4 (ix2 s j) = K P X s q := by
  rw [qkv_at P X x0 x1 x2 x3 x4 hb.h0 hb.h1 hb.h2]
  unfold K
  exact congrArg₂ (· + ·) (Finset.sum_congr rfl fun d _ => by rw [hb.h3k q d j hj]) (hb.h4k q j hj)

/-- Columns 128–727 are the values. -/
theorem proj_v (hb : Blocks P X x0 x1 x2 x3 x4 x5 x6 x7 x8) (s : Fin 512) (v : Fin 600) (j : Fin 728) (hj : j.val = 128 + v.val) :
    k0_pay6 (F := Ideal) x0 x1 x2 x3 x4 (ix2 s j) = V P X s v := by
  rw [qkv_at P X x0 x1 x2 x3 x4 hb.h0 hb.h1 hb.h2]
  unfold V
  exact congrArg₂ (· + ·) (Finset.sum_congr rfl fun d _ => by rw [hb.h3v v d j hj]) (hb.h4v v j hj)

/-- The attention weights at (s, t). -/
theorem attn_at (hb : Blocks P X x0 x1 x2 x3 x4 x5 x6 x7 x8) (s t : Fin 512) :
    k0_pay7 (F := Ideal) x0 x1 x2 x3 x4 (ix2 s t) = attn P X s t := by
  rw [pay7_eq]
  exact attn_of P X (k0_pay6 x0 x1 x2 x3 x4) (proj_q P X x0 x1 x2 x3 x4 x5 x6 x7 x8 hb) (proj_k P X x0 x1 x2 x3 x4 x5 x6 x7 x8 hb) s t

/-- The value rows at (t, v). -/
theorem v_at (hb : Blocks P X x0 x1 x2 x3 x4 x5 x6 x7 x8) (t : Fin 512) (v : Fin 600) :
    k0_pay8 (F := Ideal) x0 x1 x2 x3 x4 (ix2 t v) = V P X t v := by
  unfold k0_pay8
  refine (slice2_axis1_apply 128 (k0_pay6 x0 x1 x2 x3 x4) slices_S512x728_o0_128_S512x600 t v ⟨128 + v.val, by have := v.isLt; omega⟩ rfl).trans ?_
  exact proj_v P X x0 x1 x2 x3 x4 x5 x6 x7 x8 hb t v _ rfl

/-- The third layer's current at (s, o), from spikes, attention weights and value rows that are the specification's. -/
theorem cur3_of (hb : Blocks P X x0 x1 x2 x3 x4 x5 x6 x7 x8)
    (v12 : FVec Ideal S512x600 .f32) (v38 : FVec Ideal S512x512 .bf16) (v39 : FVec Ideal S512x600 .bf16)
    (H12 : ∀ (s : Fin 512) (d : Fin 600), v12 (ix2 s d) = spk1 P X s d)
    (H38 : ∀ s t : Fin 512, v38 (ix2 s t) = attn P X s t)
    (H39 : ∀ (t : Fin 512) (v : Fin 600), v39 (ix2 t v) = V P X t v)
    (s : Fin 512) (o : Fin 10) :
    k0_pay1 (F := Ideal) v12 v38 v39 (constant S512x600 .f32 0x00000000#32) x5 x6 x7 x8 (ix2 s o) = cur3 P X s o := by
  unfold k0_pay1 cur3
  refine congrArg₂ (· + ·) ?_ ?_
  · refine (Cert.LibProductRows.matmul_zero_at dot_S512x200_S10x200_S512x10_1_1_0_0_n_n rfl rfl rfl rfl rfl rfl rfl rfl (some .fp32) _ _ s o).trans ?_
    refine Finset.sum_congr rfl fun h _ => ?_
    refine congrArg₂ (· * ·) ?_ (hb.h7 o h)
    refine (ind_signed _ _).trans ?_
    unfold spk2 cur2
    refine congrArg₂ ind ?_ rfl
    refine congrArg₂ (· + ·) ?_ ?_
    · refine (Cert.LibProductRows.matmul_zero_at dot_S512x600_S200x600_S512x200_1_1_0_0_n_n rfl rfl rfl rfl rfl rfl rfl rfl (some .fp32) _ _ s h).trans ?_
      refine Finset.sum_congr rfl fun d _ => ?_
      refine congrArg₂ (· * ·) ?_ (hb.h5 h d)
      unfold in2
      refine congrArg₂ (· + ·) ?_ (H12 s d)
      refine (Cert.LibPlainDot.matmul_zero_at dot_S512x512_S512x600_S512x600_1_0_0_1_n_n rfl rfl rfl rfl rfl rfl rfl rfl none _ _ s d).trans ?_
      exact Finset.sum_congr rfl fun t _ => by rw [H38, H39]
    · refine (broadcastTo_1b_ab_apply _ _ s h).trans ?_
      rw [shapeCast_self, hb.h6]
  · refine (broadcastTo_1b_ab_apply _ _ s o).trans ?_
    rw [shapeCast_self, hb.h8]

/-- The third layer's current, of the body's own values. -/
theorem cur3_at (hb : Blocks P X x0 x1 x2 x3 x4 x5 x6 x7 x8) (s : Fin 512) (o : Fin 10) :
    k0_pay1 (F := Ideal) (k0_pay5 x0 x1 x2) (k0_pay7 x0 x1 x2 x3 x4) (k0_pay8 x0 x1 x2 x3 x4)
        (constant S512x600 .f32 0x00000000#32) x5 x6 x7 x8 (ix2 s o) = cur3 P X s o :=
  cur3_of P X x0 x1 x2 x3 x4 x5 x6 x7 x8 hb _ _ _ (spk1_at P X x0 x1 x2 hb.h0 hb.h1 hb.h2)
    (attn_at P X x0 x1 x2 x3 x4 x5 x6 x7 x8 hb) (v_at P X x0 x1 x2 x3 x4 x5 x6 x7 x8 hb) s o

/-- The third layer's spike at (s, o). -/
theorem spk3_at (hb : Blocks P X x0 x1 x2 x3 x4 x5 x6 x7 x8) (s : Fin 512) (o : Fin 10) :
    k0_pay2 (F := Ideal) (k0_pay5 x0 x1 x2) (k0_pay7 x0 x1 x2 x3 x4) (k0_pay8 x0 x1 x2 x3 x4)
        (constant S512x600 .f32 0x00000000#32) x5 x6 x7 x8 (ix2 s o) = spk3 P X s o := by
  unfold k0_pay2
  refine (ind_signed _ _).trans ?_
  unfold spk3
  exact congrArg₂ ind (cur3_at P X x0 x1 x2 x3 x4 x5 x6 x7 x8 hb s o) rfl

/-- The first store's value at (0, s, o): the last layer's spike. -/
theorem pay3_at (hb : Blocks P X x0 x1 x2 x3 x4 x5 x6 x7 x8) (s : Fin 512) (o : Fin 10) :
    k0_pay3 (F := Ideal) (k0_pay5 x0 x1 x2) (k0_pay7 x0 x1 x2 x3 x4) (k0_pay8 x0 x1 x2 x3 x4)
        (constant S512x600 .f32 0x00000000#32) x5 x6 x7 x8 (ix3 (0 : Fin 1) s o) = spk3 P X s o := by
  unfold k0_pay3
  refine (shapeCast_ab_1ab_apply _ shapeCasts_S512x10_S1x512x10 (0 : Fin 1) s o).trans ?_
  exact spk3_at P X x0 x1 x2 x3 x4 x5 x6 x7 x8 hb s o

/-- The second store's value at (0, s, o): the last layer's membrane after the reset. -/
theorem pay4_at (hb : Blocks P X x0 x1 x2 x3 x4 x5 x6 x7 x8) (s : Fin 512) (o : Fin 10) :
    k0_pay4 (F := Ideal) (k0_pay5 x0 x1 x2) (k0_pay7 x0 x1 x2 x3 x4) (k0_pay8 x0 x1 x2 x3 x4)
        (constant S512x600 .f32 0x00000000#32) x5 x6 x7 x8 (ix3 (0 : Fin 1) s o) = mem3 P X s o := by
  unfold k0_pay4
  refine (shapeCast_ab_1ab_apply _ shapeCasts_S512x10_S1x512x10 (0 : Fin 1) s o).trans ?_
  unfold mem3
  exact congrArg₂ (· - ·) (cur3_at P X x0 x1 x2 x3 x4 x5 x6 x7 x8 hb s o)
    (congrArg₂ (· * ·) (spk3_at P X x0 x1 x2 x3 x4 x5 x6 x7 x8 hb s o) rfl)

end Cert.KerSpec
end
-- ==== Proof.Scale.lean ====
/-
  The input scale. Both programs compute one number from the whole input x before anything else: 1/255 if the largest
  entry of x exceeds 1, else 1 — a maximum over every entry from -inf, a comparison with 1, a selection between the two
  float words. The two programs spell it with the same operations, so as a function of x it is one term; it is kept
  opaque (never evaluated) throughout.
-/
import proofs.«146510_j26671746908706_2_alg».proof.Proof.Gen.KernelIdeal
import proofs.«146510_j26671746908706_2_alg».proof.Proof.Gen.ReferenceIdeal.Read
import Idealize.ShloMosaic.Lib.ValueIdx

noncomputable section

namespace Cert.KerScale

open Idealize.ShloMosaic Idealize.ShloMosaic.ValueIdx

section
open Cert.KernelIdeal Cert.KernelIdeal.Gen

/-- The scale as the kernel's host operations compute it: a rank-0 array. -/
def scArr (x : (⟨S64x512x784, .f32⟩ : BufTy).Contents (Elt Ideal)) : (⟨S_, .f32⟩ : BufTy).Contents (Elt Ideal) :=
  select (cmpf .ogt (Host.reduce FloatOps.maximumf x (constant (F := Ideal) S_ .f32 0xFF800000#32) reducesTo_S64x512x784_S_d0_1_2 h_S_)
      (constant (F := Ideal) S_ .f32 0x3F800000#32))
    (constant (F := Ideal) S_ .f32 0x3B808081#32) (constant (F := Ideal) S_ .f32 0x3F800000#32)

/-- The scale: the rank-0 array's one entry. -/
def sc (x : (⟨S64x512x784, .f32⟩ : BufTy).Contents (Elt Ideal)) : EReal := scArr x ix0

end

/-- The reference computes the same rank-0 array (the same operations, compared as whole arrays; the maximum is never
    unfolded). -/
theorem scArr_eq (x : (⟨Cert.KernelIdeal.S64x512x784, .f32⟩ : BufTy).Contents (Elt Ideal)) :
    scArr x = Cert.ReferenceIdeal.Read.val_main_v2 (F := Ideal) x := by
  unfold scArr Cert.ReferenceIdeal.Read.val_main_v2 Cert.ReferenceIdeal.Read.val_main_v1 Cert.ReferenceIdeal.Read.val_main_v0
    Cert.ReferenceIdeal.Read.val_main_cst Cert.ReferenceIdeal.Read.val_main_cst_0 Cert.ReferenceIdeal.Read.val_main_cst_1
    Cert.ReferenceIdeal.Read.val_main_cst_2
  rfl

/-- The reference's scale — the same array passed through a conversion that is the identity — is the kernel's. -/
theorem sc_eq (x : (⟨Cert.KernelIdeal.S64x512x784, .f32⟩ : BufTy).Contents (Elt Ideal)) :
    Cert.ReferenceIdeal.Read.val_main_v3 (F := Ideal) x ix0 = sc x := by
  unfold Cert.ReferenceIdeal.Read.val_main_v3 sc
  exact (congrFun (id_eq _) ix0).trans (congrFun (scArr_eq x).symm ix0)

end Cert.KerScale

end
-- ==== Proof.IdealValuePK.lean ====
import proofs.«146510_j26671746908706_2_alg».proof.Proof.Gen.KernelIdeal.Launch
import proofs.«146510_j26671746908706_2_alg».proof.Proof.Spec
import proofs.«146510_j26671746908706_2_alg».proof.Proof.Scale

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ)

/-- The weights and the input scale on core `c`, read off the launch contents of the thirteen arguments: the scale
    from the input array, the twelve weight and bias arrays in argument order. -/
def PK (c : Dev nD) : Cert.Spec.Params :=
  Cert.Spec.paramsOf (Cert.KerScale.sc (m ((c.tc : Thread nD τ).loc main_arg0)))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))

/-- The grid has one point per batch: point `t` works on batch `t`. -/
def bOf (t : Fin cfg0.N) : Fin 64 := ⟨t.val, lt_of_lt_of_eq t.isLt N_0⟩

end Cert.KernelIdeal.Val

end
-- ==== Proof.IdealValueRun.lean ====
import proofs.«146510_j26671746908706_2_alg».proof.Proof.IdealFrame
import proofs.«146510_j26671746908706_2_alg».proof.Proof.KerFinal
import proofs.«146510_j26671746908706_2_alg».proof.Proof.IdealValuePK
import Idealize.ShloMosaic.Lib.Pipeline.Value

/-!
  From the blocks the grid points write back to the two result arrays.

  Grid point t works on batch t: its block of each result array is rows (t, ·, ·), and it stores there the body's two
  values, which — once the nine loaded blocks are known to hold batch t's matrix and the weights — are the
  specification's last-layer spikes and membrane of batch t. The 64 blocks tile each result array, so after the run each
  array is the specification's whole-array function of the arguments.
-/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.Spec Cert.KerSpec

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification's first result at an array index named by its coordinates. -/
theorem outSpk_at (P : Params) (x : (⟨3, ![64, 512, 784]⟩ : Shape).Idx → EReal) (j : (⟨3, ![64, 512, 10]⟩ : Shape).Idx)
    (b : Fin 64) (s : Fin 512) (o : Fin 10) (h0 : (j 0).val = b.val) (h1 : (j 1).val = s.val) (h2 : (j 2).val = o.val) :
    outSpk P x j = spk3 P (batch x b) s o := by
  have e : j = ix3 b s o := funext fun a => Fin.ext (by
    match a with
    | ⟨0, _⟩ => exact h0
    | ⟨1, _⟩ => exact h1
    | ⟨2, _⟩ => exact h2)
  rw [e]; rfl

/-- The second result likewise. -/
theorem outMem_at (P : Params) (x : (⟨3, ![64, 512, 784]⟩ : Shape).Idx → EReal) (j : (⟨3, ![64, 512, 10]⟩ : Shape).Idx)
    (b : Fin 64) (s : Fin 512) (o : Fin 10) (h0 : (j 0).val = b.val) (h1 : (j 1).val = s.val) (h2 : (j 2).val = o.val) :
    outMem P x j = mem3 P (batch x b) s o := by
  have e : j = ix3 b s o := funext fun a => Fin.ext (by
    match a with
    | ⟨0, _⟩ => exact h0
    | ⟨1, _⟩ => exact h1
    | ⟨2, _⟩ => exact h2)
  rw [e]; rfl

/-- An index of a [1, 512, 10] block by its coordinates: the first is 0. -/
theorem blockIdx (y : S1x512x10.Idx) :
    y = ix3 (0 : Fin 1) (⟨(y 1).val, (y 1).isLt⟩ : Fin 512) (⟨(y 2).val, (y 2).isLt⟩ : Fin 10) :=
  funext fun a => Fin.ext (by
    match a with
    | ⟨0, _⟩ => have h : (y 0).val < 1 := (y 0).isLt; show (y 0).val = 0; omega
    | ⟨1, _⟩ => rfl
    | ⟨2, _⟩ => rfl)

/-- The two result windows' index maps: point t's block is (t, 0, 0). -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, win0_10.index t (0 : Fin 3) = t.val ∧ win0_10.index t (1 : Fin 3) = 0 ∧ win0_10.index t (2 : Fin 3) = 0)

section
variable (c : Dev nD) (t : Fin cfg0.N)
  (hb : Blocks (PK m c) (batch (m ((c.tc : Thread nD τ).loc main_arg0)) (bOf t)) (iblk m c 0 t) (iblk m c 1 t) (iblk m c 2 t) (iblk m c 3 t) (iblk m c 4 t) (iblk m c 5 t) (iblk m c 6 t) (iblk m c 7 t) (iblk m c 8 t))
include hb

/-- What point t writes back to the first result array is block t of the specification's first result. -/
theorem flushed9_of :
    (dats m 0 c).flushed 9 t = ((cfg0.win 9).blk t).view.read (Elt Ideal) (outSpk (PK m c) (m ((c.tc : Thread nD τ).loc main_arg0))) := by
  show (cfg0.win 9).cut (grid0.coords t) ((dats m 0 c).after 9 t) = _
  rw [after0_9]
  unfold out9
  rw [View.canon_unit_zero hz3]
  simp only [View.ld_unit_zero (S := S1x512x784) hz3, View.ld_unit_zero (S := S600x784) hz2, View.ld_unit_zero (S := S1x600) hz2, View.ld_unit_zero (S := S728x600) hz2, View.ld_unit_zero (S := S1x728) hz2, View.ld_unit_zero (S := S200x600) hz2, View.ld_unit_zero (S := S1x200) hz2, View.ld_unit_zero (S := S10x200) hz2, View.ld_unit_zero (S := S1x10) hz2]
  obtain ⟨e0, e1, e2⟩ := idx9 t
  funext y
  show k0_pay3 (F := Ideal) (k0_pay5 (iblk m c 0 t) (iblk m c 1 t) (iblk m c 2 t)) (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) (constant S512x600 .f32 0x00000000#32)
      (iblk m c 5 t) (iblk m c 6 t) (iblk m c 7 t) (iblk m c 8 t) (y : S1x512x10.Idx)
    = outSpk (PK m c) (m ((c.tc : Thread nD τ).loc main_arg0)) (((cfg0.win 9).blk t).view.emb y)
  have hy0 : ((y : S1x512x10.Idx) 0).val < 1 := ((y : S1x512x10.Idx) 0).isLt
  refine ((congrArg _ (blockIdx y)).trans (pay3_at _ _ _ _ _ _ _ _ _ _ _ hb _ _)).trans (outSpk_at _ _ _ _ _ _ ?_ ?_ ?_).symm
  · show win0_9.index t (0 : Fin 3) * 1 + 1 * ((y : S1x512x10.Idx) 0).val = t.val; omega
  · show win0_9.index t (1 : Fin 3) * 512 + 1 * ((y : S1x512x10.Idx) 1).val = ((y : S1x512x10.Idx) 1).val; omega
  · show win0_9.index t (2 : Fin 3) * 10 + 1 * ((y : S1x512x10.Idx) 2).val = ((y : S1x512x10.Idx) 2).val; omega

/-- What point t writes back to the second result array is block t of the specification's second result. -/
theorem flushed10_of :
    (dats m 0 c).flushed 10 t = ((cfg0.win 10).blk t).view.read (Elt Ideal) (outMem (PK m c) (m ((c.tc : Thread nD τ).loc main_arg0))) := by
  show (cfg0.win 10).cut (grid0.coords t) ((dats m 0 c).after 10 t) = _
  rw [after0_10]
  unfold out10
  rw [View.canon_unit_zero hz3]
  simp only [View.ld_unit_zero (S := S1x512x784) hz3, View.ld_unit_zero (S := S600x784) hz2, View.ld_unit_zero (S := S1x600) hz2, View.ld_unit_zero (S := S728x600) hz2, View.ld_unit_zero (S := S1x728) hz2, View.ld_unit_zero (S := S200x600) hz2, View.ld_unit_zero (S := S1x200) hz2, View.ld_unit_zero (S := S10x200) hz2, View.ld_unit_zero (S := S1x10) hz2]
  obtain ⟨e0, e1, e2⟩ := idx10 t
  funext y
  show k0_pay4 (F := Ideal) (k0_pay5 (iblk m c 0 t) (iblk m c 1 t) (iblk m c 2 t)) (k0_pay7 (iblk m c 0 t) (iblk m c 1 t) (iblk m c 2 t) (iblk m c 3 t) (iblk m c 4 t))
      (k0_pay8 (iblk m c 0 t) (iblk m c 1 t) (iblk m c 2 t) (iblk m c 3 t) (iblk m c 4 t)) (constant S512x600 .f32 0x00000000#32)
      (iblk m c 5 t) (iblk m c 6 t) (iblk m c 7 t) (iblk m c 8 t) (y : S1x512x10.Idx)
    = outMem (PK m c) (m ((c.tc : Thread nD τ).loc main_arg0)) (((cfg0.win 10).blk t).view.emb y)
  have hy0 : ((y : S1x512x10.Idx) 0).val < 1 := ((y : S1x512x10.Idx) 0).isLt
  refine ((congrArg _ (blockIdx y)).trans (pay4_at _ _ _ _ _ _ _ _ _ _ _ hb _ _)).trans (outMem_at _ _ _ _ _ _ ?_ ?_ ?_).symm
  · show win0_10.index t (0 : Fin 3) * 1 + 1 * ((y : S1x512x10.Idx) 0).val = t.val; omega
  · show win0_10.index t (1 : Fin 3) * 512 + 1 * ((y : S1x512x10.Idx) 1).val = ((y : S1x512x10.Idx) 1).val; omega
  · show win0_10.index t (2 : Fin 3) * 10 + 1 * ((y : S1x512x10.Idx) 2).val = ((y : S1x512x10.Idx) 2).val; omega

end

/-- An index of a result array is in point t's block iff each coordinate is in the block's range on its axis. -/
theorem mem_blk9 (t : Fin cfg0.N) (i : S64x512x10.Idx) :
    i ∈ ((cfg0.win 9).blk t).view.set ↔ ∀ a : Fin 3, win0_9.index t a * S1x512x10.size a ≤ (i a).val ∧ (i a).val < win0_9.index t a * S1x512x10.size a + S1x512x10.size a := by
  show i ∈ ((View.whole main_v12_0).slice (win0_9.rect t)).set ↔ _
  rw [View.set_slice_whole, Rect.mem_set_unit]
  exact Iff.rfl
theorem mem_blk10 (t : Fin cfg0.N) (i : S64x512x10.Idx) :
    i ∈ ((cfg0.win 10).blk t).view.set ↔ ∀ a : Fin 3, win0_10.index t a * S1x512x10.size a ≤ (i a).val ∧ (i a).val < win0_10.index t a * S1x512x10.size a + S1x512x10.size a := by
  show i ∈ ((View.whole main_v12_1).slice (win0_10.rect t)).set ↔ _
  rw [View.set_slice_whole, Rect.mem_set_unit]
  exact Iff.rfl

/-- Every index (b, s, o) of the first result array lies in the block of point b. -/
theorem cover9 (i : S64x512x10.Idx) : ∃ t : Fin cfg0.N, (cfg0.win 9).flush t = true ∧ i ∈ ((cfg0.win 9).blk t).view.set := by
  have hi0 : (i 0).val < 64 := (i 0).isLt
  have hi1 : (i 1).val < 512 := (i 1).isLt
  have hi2 : (i 2).val < 10 := (i 2).isLt
  refine ⟨⟨(i 0).val, lt_of_lt_of_eq hi0 N_0.symm⟩, flush0_9 _, ?_⟩
  rw [mem_blk9]
  obtain ⟨e0, e1, e2⟩ := idx9 ⟨(i 0).val, lt_of_lt_of_eq hi0 N_0.symm⟩
  intro a
  match a with
  | ⟨0, _⟩ => show win0_9.index _ (0 : Fin 3) * 1 ≤ (i 0).val ∧ (i 0).val < win0_9.index _ (0 : Fin 3) * 1 + 1; rw [e0]; show (i 0).val * 1 ≤ (i 0).val ∧ (i 0).val < (i 0).val * 1 + 1; omega
  | ⟨1, _⟩ => show win0_9.index _ (1 : Fin 3) * 512 ≤ (i 1).val ∧ (i 1).val < win0_9.index _ (1 : Fin 3) * 512 + 512; rw [e1]; omega
  | ⟨2, _⟩ => show win0_9.index _ (2 : Fin 3) * 10 ≤ (i 2).val ∧ (i 2).val < win0_9.index _ (2 : Fin 3) * 10 + 10; rw [e2]; omega

/-- The same for the second result array. -/
theorem cover10 (i : S64x512x10.Idx) : ∃ t : Fin cfg0.N, (cfg0.win 10).flush t = true ∧ i ∈ ((cfg0.win 10).blk t).view.set := by
  have hi0 : (i 0).val < 64 := (i 0).isLt
  have hi1 : (i 1).val < 512 := (i 1).isLt
  have hi2 : (i 2).val < 10 := (i 2).isLt
  refine ⟨⟨(i 0).val, lt_of_lt_of_eq hi0 N_0.symm⟩, flush0_10 _, ?_⟩
  rw [mem_blk10]
  obtain ⟨e0, e1, e2⟩ := idx10 ⟨(i 0).val, lt_of_lt_of_eq hi0 N_0.symm⟩
  intro a
  match a with
  | ⟨0, _⟩ => show win0_10.index _ (0 : Fin 3) * 1 ≤ (i 0).val ∧ (i 0).val < win0_10.index _ (0 : Fin 3) * 1 + 1; rw [e0]; show (i 0).val * 1 ≤ (i 0).val ∧ (i 0).val < (i 0).val * 1 + 1; omega
  | ⟨1, _⟩ => show win0_10.index _ (1 : Fin 3) * 512 ≤ (i 1).val ∧ (i 1).val < win0_10.index _ (1 : Fin 3) * 512 + 512; rw [e1]; omega
  | ⟨2, _⟩ => show win0_10.index _ (2 : Fin 3) * 10 ≤ (i 2).val ∧ (i 2).val < win0_10.index _ (2 : Fin 3) * 10 + 10; rw [e2]; omega

section
variable (hB : ∀ (c : Dev nD) (t : Fin cfg0.N),
  Blocks (PK m c) (batch (m ((c.tc : Thread nD τ).loc main_arg0)) (bOf t)) (iblk m c 0 t) (iblk m c 1 t) (iblk m c 2 t) (iblk m c 3 t) (iblk m c 4 t) (iblk m c 5 t) (iblk m c 6 t) (iblk m c 7 t) (iblk m c 8 t))
include hB

/-- After the run the first result array is the specification's first result. -/
theorem final9 (c : Dev nD) : (dats m 0 c).arrAt 9 cfg0.N = outSpk (PK m c) (m ((c.tc : Thread nD τ).loc main_arg0)) :=
  (dats m 0 c).arrAt_eq_of_cover 9 _ (fun t _ => flushed9_of m c t (hB c t)) cover9

/-- After the run the second result array is the specification's second result. -/
theorem final10 (c : Dev nD) : (dats m 0 c).arrAt 10 cfg0.N = outMem (PK m c) (m ((c.tc : Thread nD τ).loc main_arg0)) :=
  (dats m 0 c).arrAt_eq_of_cover 10 _ (fun t _ => flushed10_of m c t (hB c t)) cover10

/-- The kernel's run, read: every execution ends with the two result arrays at the specification's two results of the
    arguments, and the arguments as launched. -/
theorem run_of : θ_run (defs (F := Ideal)) (onTc (τ := τ) (main (F := Ideal))) ⟨m, fun _ => 0, ρ⟩ (fun r => ∀ c : Dev nD,
      r.2.mem ((c.tc : Thread nD τ).loc main_v12_0) = outSpk (PK m c) (m ((c.tc : Thread nD τ).loc main_arg0))
      ∧ r.2.mem ((c.tc : Thread nD τ).loc main_v12_1) = outMem (PK m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1 9).trans (final9 m hB c), ((h c).1 10).trans (final10 m hB c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c))),
      ((h c).2 main_arg10 (Pipeline.mem_restRefs_of main_arg10 (by decide) (by decide))).trans (V_main_arg10 m c),
      ((h c).1 7).trans (((dats m 0 c).arrAt_in 7 rfl _).trans ((A_eq m c 7).trans (V_main_arg11 m c))),
      ((h c).2 main_arg12 (Pipeline.mem_restRefs_of main_arg12 (by decide) (by decide))).trans (V_main_arg12 m c)⟩)
    (run_main m ρ)

end

end Cert.KernelIdeal.Val

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.LibJoinAt.lean ====
import Idealize.ShloMosaic.Lib.ValueIdx
import Idealize.ShloMosaic.Lib.Pipeline.Value

/-!
# Vectors joined end to end, read at an entry

The rank-1 companion of reading a stack of matrices at an entry: vectors [Wₖ] concatenated into one vector [R].
Entry `j` of the result is entry `p` of piece `k` when the pieces before `k` have `pre` entries together and
`j = pre + p`. The piece is named by an equation `xs[k]? = some ⟨shape, x₁⟩`, decided for a literal list by walking
it; `pre` is a sum over a literal prefix. Nothing here depends on what the entries are; library imports only.
-/

namespace Cert.LibJoinAt

open Idealize.ShloMosaic Idealize.ShloMosaic.ValueIdx

variable {α : Type}

/-- The lengths of the pieces, as the library's reading of a concatenation sums them. -/
abbrev lengths {R : ℕ} (ss : List Shape) : List Nat :=
  ss.map fun s => if h : s.rank = (⟨1, ![R]⟩ : Shape).rank then s.size ((0 : Fin 1).cast h.symm) else 0

/-- Vectors joined end to end, read at `j`: entry `p` of piece `k`, where `j = pre + p` and `pre` is the number of
    entries of the pieces before `k`. -/
theorem joined_at {R W : ℕ} (xs : List ((s : Shape) × (s.Idx → α)))
    (h : Shape.Concatenates (xs.map (·.1)) ⟨1, ![R]⟩ (0 : Fin 1)) (j : Fin R)
    (k : ℕ) (x₁ : (⟨1, ![W]⟩ : Shape).Idx → α) (hxk : xs[k]? = some ⟨⟨1, ![W]⟩, x₁⟩)
    (pre : ℕ) (hpre : (lengths (R := R) ((xs.take k).map (·.1))).sum = pre)
    (p : Fin W) (hj : pre + p.val = j.val) :
    concatenate ⟨1, ![R]⟩ (0 : Fin 1) xs h (ix1 j) = x₁ (ix1 p) := by
  obtain ⟨hk, hxk'⟩ := List.getElem?_eq_some_iff.mp hxk
  exact concatenate_apply_piece (t := ⟨1, ![R]⟩) (0 : Fin 1) xs h (ix1 j) k hk ⟨1, ![W]⟩ x₁ hxk' rfl pre hpre (ix1 p)
    (fun b hb => by
      match b with
      | ⟨0, _⟩ => exact absurd rfl hb) hj

end Cert.LibJoinAt
-- ==== Proof.IdealValueHost.lean ====
import proofs.«146510_j26671746908706_2_alg».proof.Proof.IdealFrame
import proofs.«146510_j26671746908706_2_alg».proof.Proof.Scale
import proofs.«146510_j26671746908706_2_alg».proof.Proof.IdealValuePK
import proofs.«146510_j26671746908706_2_alg».proof.Proof.LibConcatAt
import proofs.«146510_j26671746908706_2_alg».proof.Proof.LibJoinAt
import Idealize.ShloMosaic.Lib.Pipeline.Value
import Idealize.ShloMosaic.Lib.ValueLayout

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the host operations write before the region, as terms of the arguments

Six of the nine arrays the region stages are not arguments but results of host operations on arguments: the first
weight matrix multiplied entrywise by the input scale; three bias vectors given a leading unit axis; the three
projection matrices stacked on top of each other (and narrowed to a shorter float format, which changes nothing over
the extended reals); the three projection biases joined end to end and given a leading unit axis. Each is first read
off the fold of host operations for any float model, then at the extended reals, then at an entry. -/

/-- Go on pushing references through host operations' results (the fold already opened). -/
macro "more_results" : tactic =>
  `(tactic| (repeat (first
               | rw [StableHlo.nullary_result] | rw [StableHlo.unary_result] | rw [StableHlo.binary_result]
               | rw [StableHlo.ternary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

section AnyFloats

variable {F : FTy → Type} [FloatOps F] (mF : (ℓ : Loc nD τ sig) → Buf (Elt F) ℓ)

set_option maxHeartbeats 8000000 in
/-- The scalar array the scale is kept in: 1/255 when the largest input entry exceeds 1, else 1. -/
theorem V_v2_any (c : Dev nD) : (V mF c main_v2 : S_.Idx → Elt F .f32) = (select (cmpf .ogt (Host.reduce FloatOps.maximumf (mF ((c.tc : Thread nD τ).loc main_arg0)) (constant S_ .f32 0xFF800000#32) reducesTo_S64x512x784_S_d0_1_2 h_S_) (constant S_ .f32 0x3F800000#32)) (constant S_ .f32 0x3B808081#32) (constant S_ .f32 0x3F800000#32)) := by
  dsimp only [V]
  simp only [hostOps0, hostOps0_1, hostOps0_2, List.flatten_cons, List.flatten_nil, List.append_nil, List.cons_append, List.nil_append]
  after_results
  all_goals rfl

set_option maxHeartbeats 8000000 in
/-- The rescaled first weight matrix: the argument times the broadcast scale. -/
theorem V_v4_any (c : Dev nD) : (V mF c main_v4 : S600x784.Idx → Elt F .f32) = mulf (V mF c main_arg1 : S600x784.Idx → Elt F .f32) (broadcastInDim S600x784 ![] bcast_S_S600x784 (V mF c main_v2 : S_.Idx → Elt F .f32)) := by
  dsimp only [V]
  simp only [hostOps0, hostOps0_1, hostOps0_2, List.flatten_cons, List.flatten_nil, List.append_nil, List.cons_append, List.nil_append]
  after_results
  all_goals rfl

set_option maxHeartbeats 8000000 in
/-- The three projection matrices stacked. -/
theorem V_v5_any (c : Dev nD) : (V mF c main_v5 : S728x600.Idx → Elt F .f32) = concatenate S728x600 0 [⟨S64x600, (V mF c main_arg3 : S64x600.Idx → Elt F .f32)⟩, ⟨S64x600, (V mF c main_arg5 : S64x600.Idx → Elt F .f32)⟩, ⟨S600x600, (V mF c main_arg7 : S600x600.Idx → Elt F .f32)⟩] concatenates_S64x600_S64x600_S600x600_S728x600_d0 := by
  dsimp only [V]
  simp only [hostOps0, hostOps0_1, hostOps0_2, List.flatten_cons, List.flatten_nil, List.append_nil, List.cons_append, List.nil_append]
  after_results
  show concatenate S728x600 0 [⟨S64x600, (_ : Valuation τ sig (Elt F)) (Proc.devRef .tc main_arg3)⟩, ⟨S64x600, (_ : Valuation τ sig (Elt F)) (Proc.devRef .tc main_arg5)⟩, ⟨S600x600, (_ : Valuation τ sig (Elt F)) (Proc.devRef .tc main_arg7)⟩] _ = _
  more_results
  all_goals rfl

set_option maxHeartbeats 8000000 in
/-- The stack narrowed to the shorter float format. -/
theorem V_v6_any (c : Dev nD) : (V mF c main_v6 : S728x600.Idx → Elt F .bf16) = truncf .bf16 (V mF c main_v5 : S728x600.Idx → Elt F .f32) bitsLt_bf16_f32 := by
  dsimp only [V]
  simp only [hostOps0, hostOps0_1, hostOps0_2, List.flatten_cons, List.flatten_nil, List.append_nil, List.cons_append, List.nil_append]
  after_results
  all_goals rfl

set_option maxHeartbeats 8000000 in
/-- The three projection biases joined. -/
theorem V_v7_any (c : Dev nD) : (V mF c main_v7 : S728.Idx → Elt F .f32) = concatenate S728 0 [⟨S64, (V mF c main_arg4 : S64.Idx → Elt F .f32)⟩, ⟨S64, (V mF c main_arg6 : S64.Idx → Elt F .f32)⟩, ⟨S600, (V mF c main_arg8 : S600.Idx → Elt F .f32)⟩] concatenates_S64_S64_S600_S728_d0 := by
  dsimp only [V]
  simp only [hostOps0, hostOps0_1, hostOps0_2, List.flatten_cons, List.flatten_nil, List.append_nil, List.cons_append, List.nil_append]
  after_results
  show concatenate S728 0 [⟨S64, (_ : Valuation τ sig (Elt F)) (Proc.devRef .tc main_arg4)⟩, ⟨S64, (_ : Valuation τ sig (Elt F)) (Proc.devRef .tc main_arg6)⟩, ⟨S600, (_ : Valuation τ sig (Elt F)) (Proc.devRef .tc main_arg8)⟩] _ = _
  more_results
  all_goals rfl

set_option maxHeartbeats 8000000 in
/-- The joined biases as a one-row matrix. -/
theorem V_v8_any (c : Dev nD) : (V mF c main_v8 : S1x728.Idx → Elt F .f32) = shapeCast S1x728 (V mF c main_v7 : S728.Idx → Elt F .f32) shapeCasts_S728_S1x728 := by
  dsimp only [V]
  simp only [hostOps0, hostOps0_1, hostOps0_2, List.flatten_cons, List.flatten_nil, List.append_nil, List.cons_append, List.nil_append]
  after_results
  all_goals rfl

set_option maxHeartbeats 8000000 in
/-- The three remaining bias vectors as one-row matrices. -/
theorem V_v9_any (c : Dev nD) : (V mF c main_v9 : S1x600.Idx → Elt F .f32) = shapeCast S1x600 (V mF c main_arg2 : S600.Idx → Elt F .f32) shapeCasts_S600_S1x600 := by
  dsimp only [V]
  simp only [hostOps0, hostOps0_1, hostOps0_2, List.flatten_cons, List.flatten_nil, List.append_nil, List.cons_append, List.nil_append]
  after_results
  all_goals rfl

set_option maxHeartbeats 8000000 in
theorem V_v10_any (c : Dev nD) : (V mF c main_v10 : S1x200.Idx → Elt F .f32) = shapeCast S1x200 (V mF c main_arg10 : S200.Idx → Elt F .f32) shapeCasts_S200_S1x200 := by
  dsimp only [V]
  simp only [hostOps0, hostOps0_1, hostOps0_2, List.flatten_cons, List.flatten_nil, List.append_nil, List.cons_append, List.nil_append]
  after_results
  all_goals rfl

set_option maxHeartbeats 8000000 in
theorem V_v11_any (c : Dev nD) : (V mF c main_v11 : S1x10.Idx → Elt F .f32) = shapeCast S1x10 (V mF c main_arg12 : S10.Idx → Elt F .f32) shapeCasts_S10_S1x10 := by
  dsimp only [V]
  simp only [hostOps0, hostOps0_1, hostOps0_2, List.flatten_cons, List.flatten_nil, List.append_nil, List.cons_append, List.nil_append]
  after_results
  all_goals rfl

end AnyFloats

/-! ## At the extended reals -/

/-- The scalar array holds the input scale, as one whole (rank-0) array. -/
theorem V_v2 (c : Dev nD) : (V m c main_v2 : S_.Idx → EReal) = Cert.KerScale.scArr (m ((c.tc : Thread nD τ).loc main_arg0)) :=
  (V_v2_any m c).trans (by unfold Cert.KerScale.scArr; rfl)

/-! ## The same arrays read at an entry -/

/-- A bias vector given a leading unit axis, at (0, o): the argument's entry o. -/
theorem v9_at (c : Dev nD) (o : Fin 600) : (V m c main_v9 : S1x600.Idx → EReal) (ix2 (0 : Fin 1) o) = (m ((c.tc : Thread nD τ).loc main_arg2)) (ix1 o) := by
  rw [V_v9_any m c]
  refine (shapeCast_a_1a_apply _ _ _ _).trans ?_
  rw [V_main_arg2 m c]
theorem v10_at (c : Dev nD) (h : Fin 200) : (V m c main_v10 : S1x200.Idx → EReal) (ix2 (0 : Fin 1) h) = (m ((c.tc : Thread nD τ).loc main_arg10)) (ix1 h) := by
  rw [V_v10_any m c]
  refine (shapeCast_a_1a_apply _ _ _ _).trans ?_
  rw [V_main_arg10 m c]
theorem v11_at (c : Dev nD) (o : Fin 10) : (V m c main_v11 : S1x10.Idx → EReal) (ix2 (0 : Fin 1) o) = (m ((c.tc : Thread nD τ).loc main_arg12)) (ix1 o) := by
  rw [V_v11_any m c]
  refine (shapeCast_a_1a_apply _ _ _ _).trans ?_
  rw [V_main_arg12 m c]

/-- Row j of the stacked projection matrices: rows 0–63 are the first matrix, 64–127 the second, 128–727 the third. -/
theorem v6_q (c : Dev nD) (q : Fin 64) (d : Fin 600) (j : Fin 728) (hj : j.val = q.val) :
    (V m c main_v6 : S728x600.Idx → EReal) (ix2 j d) = (m ((c.tc : Thread nD τ).loc main_arg3)) (ix2 q d) := by
  rw [V_v6_any m c]
  show (V m c main_v5 : S728x600.Idx → EReal) (ix2 j d) = _
  rw [V_v5_any m c]
  refine (Cert.LibConcatAt.stacked_at _ _ j d 0 (V m c main_arg3 : S64x600.Idx → EReal) rfl 0 rfl q (by omega)).trans ?_
  rw [V_main_arg3 m c]
theorem v6_k (c : Dev nD) (q : Fin 64) (d : Fin 600) (j : Fin 728) (hj : j.val = 64 + q.val) :
    (V m c main_v6 : S728x600.Idx → EReal) (ix2 j d) = (m ((c.tc : Thread nD τ).loc main_arg5)) (ix2 q d) := by
  rw [V_v6_any m c]
  show (V m c main_v5 : S728x600.Idx → EReal) (ix2 j d) = _
  rw [V_v5_any m c]
  refine (Cert.LibConcatAt.stacked_at _ _ j d 1 (V m c main_arg5 : S64x600.Idx → EReal) rfl 64 rfl q (by omega)).trans ?_
  rw [V_main_arg5 m c]
theorem v6_v (c : Dev nD) (v : Fin 600) (d : Fin 600) (j : Fin 728) (hj : j.val = 128 + v.val) :
    (V m c main_v6 : S728x600.Idx → EReal) (ix2 j d) = (m ((c.tc : Thread nD τ).loc main_arg7)) (ix2 v d) := by
  rw [V_v6_any m c]
  show (V m c main_v5 : S728x600.Idx → EReal) (ix2 j d) = _
  rw [V_v5_any m c]
  refine (Cert.LibConcatAt.stacked_at _ _ j d 2 (V m c main_arg7 : S600x600.Idx → EReal) rfl 128 rfl v (by omega)).trans ?_
  rw [V_main_arg7 m c]

/-- Entry j of the joined projection biases, as a one-row matrix: the same three ranges. -/
theorem v8_q (c : Dev nD) (q : Fin 64) (j : Fin 728) (hj : j.val = q.val) :
    (V m c main_v8 : S1x728.Idx → EReal) (ix2 (0 : Fin 1) j) = (m ((c.tc : Thread nD τ).loc main_arg4)) (ix1 q) := by
  rw [V_v8_any m c]
  refine (shapeCast_a_1a_apply _ _ _ _).trans ?_
  rw [V_v7_any m c]
  refine (Cert.LibJoinAt.joined_at _ _ j 0 (V m c main_arg4 : S64.Idx → EReal) rfl 0 rfl q (by omega)).trans ?_
  rw [V_main_arg4 m c]
theorem v8_k (c : Dev nD) (q : Fin 64) (j : Fin 728) (hj : j.val = 64 + q.val) :
    (V m c main_v8 : S1x728.Idx → EReal) (ix2 (0 : Fin 1) j) = (m ((c.tc : Thread nD τ).loc main_arg6)) (ix1 q) := by
  rw [V_v8_any m c]
  refine (shapeCast_a_1a_apply _ _ _ _).trans ?_
  rw [V_v7_any m c]
  refine (Cert.LibJoinAt.joined_at _ _ j 1 (V m c main_arg6 : S64.Idx → EReal) rfl 64 rfl q (by omega)).trans ?_
  rw [V_main_arg6 m c]
theorem v8_v (c : Dev nD) (v : Fin 600) (j : Fin 728) (hj : j.val = 128 + v.val) :
    (V m c main_v8 : S1x728.Idx → EReal) (ix2 (0 : Fin 1) j) = (m ((c.tc : Thread nD τ).loc main_arg8)) (ix1 v) := by
  rw [V_v8_any m c]
  refine (shapeCast_a_1a_apply _ _ _ _).trans ?_
  rw [V_v7_any m c]
  refine (Cert.LibJoinAt.joined_at _ _ j 2 (V m c main_arg8 : S600.Idx → EReal) rfl 128 rfl v (by omega)).trans ?_
  rw [V_main_arg8 m c]

end Cert.KernelIdeal.Val

end
-- ==== Proof.IdealValueBlocks.lean ====
import proofs.«146510_j26671746908706_2_alg».proof.Proof.IdealValueHost
import proofs.«146510_j26671746908706_2_alg».proof.Proof.IdealValuePK
import proofs.«146510_j26671746908706_2_alg».proof.Proof.KerFinal

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The nine blocks the body loads at a grid point

Grid point `t` handles batch `t`: the first window's block is batch `t` of the input array; each of the other
eight windows has one block, its whole array, at every point. Read entry by entry, and with the host-written arrays
read back to the arguments, the nine blocks hold what the per-batch arithmetic assumes of them. -/

/-- The block index of every input window at every point, decided over the 64 points. -/
theorem idx_in : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The rescaled first weight matrix at (o, i): the argument's entry times the scale. -/
theorem v4_at (c : Dev nD) (o : Fin 600) (i : Fin 784) :
    (V m c main_v4 : S600x784.Idx → EReal) (ix2 o i) = (PK m c).We o i * (PK m c).sc := by
  have hW : (PK m c).We o i = (V m c main_arg1 : S600x784.Idx → EReal) (ix2 o i) := by rw [V_main_arg1 m c]; rfl
  have hs : (PK m c).sc = (V m c main_v2 : S_.Idx → EReal) ValueIdx.ix0 := by
    rw [V_v2 m c]
    unfold PK Cert.Spec.paramsOf Cert.KerScale.sc
    dsimp only
  rw [hW, hs, V_v4_any m c, mulf_apply, broadcastInDim_apply _ _ _ (ix2 o i) ValueIdx.ix0 (fun a => a.elim0)]

section AnyFloats

variable {F : FTy → Type} [FloatOps F] (mF : (ℓ : Loc nD τ sig) → Buf (Elt F) ℓ)

/-- The first window's block at point `t` is batch `t` of the input array. -/
theorem iblk0_at (c : Dev nD) (t : Fin cfg0.N) (s : Fin 512) (i : Fin 784) :
    (iblk mF c 0 t : Vec F S1x512x784 .f32) (ix3 (0 : Fin 1) s i)
      = (mF ((c.tc : Thread nD τ).loc main_arg0) : S64x512x784.Idx → Elt F .f32) (ix3 (bOf t) s i) := by
  obtain ⟨⟨e0, e1, e2⟩, -⟩ := idx_in t
  unfold iblk
  rw [View.read_apply]
  show V mF c main_arg0 _ = _
  rw [V_main_arg0 mF c]
  refine congrArg (mF ((c.tc : Thread nD τ).loc main_arg0) : S64x512x784.Idx → Elt F .f32) (funext fun k => Fin.ext ?_)
  match k with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 784 + 1 * i.val = i.val; omega

/-- Window 1 is its whole array at every point: its block read at (a, b) is the array at (a, b). -/
theorem iblk1_at (c : Dev nD) (t : Fin cfg0.N) (a : Fin 600) (b : Fin 784) :
    (iblk mF c 1 t : Vec F S600x784 .f32) (ix2 a b) = (V mF c main_v4 : S600x784.Idx → Elt F .f32) (ix2 a b) := by
  obtain ⟨-, ⟨e0, e1⟩, -, -, -, -, -, -, -⟩ := idx_in t
  unfold iblk
  rw [View.read_apply]
  show V mF c main_v4 _ = V mF c main_v4 _
  refine congrArg (V mF c main_v4 : S600x784.Idx → Elt F .f32) (funext fun k => Fin.ext ?_)
  match k with
  | ⟨0, _⟩ => show win0_1.index t (0 : Fin 2) * 600 + 1 * a.val = a.val; omega
  | ⟨1, _⟩ => show win0_1.index t (1 : Fin 2) * 784 + 1 * b.val = b.val; omega
/-- Window 2 is its whole array at every point: its block read at (a, b) is the array at (a, b). -/
theorem iblk2_at (c : Dev nD) (t : Fin cfg0.N) (a : Fin 1) (b : Fin 600) :
    (iblk mF c 2 t : Vec F S1x600 .f32) (ix2 a b) = (V mF c main_v9 : S1x600.Idx → Elt F .f32) (ix2 a b) := by
  obtain ⟨-, -, ⟨e0, e1⟩, -, -, -, -, -, -⟩ := idx_in t
  unfold iblk
  rw [View.read_apply]
  show V mF c main_v9 _ = V mF c main_v9 _
  refine congrArg (V mF c main_v9 : S1x600.Idx → Elt F .f32) (funext fun k => Fin.ext ?_)
  match k with
  | ⟨0, _⟩ => show win0_2.index t (0 : Fin 2) * 1 + 1 * a.val = a.val; omega
  | ⟨1, _⟩ => show win0_2.index t (1 : Fin 2) * 600 + 1 * b.val = b.val; omega
/-- Window 3 is its whole array at every point: its block read at (a, b) is the array at (a, b). -/
theorem iblk3_at (c : Dev nD) (t : Fin cfg0.N) (a : Fin 728) (b : Fin 600) :
    (iblk mF c 3 t : Vec F S728x600 .bf16) (ix2 a b) = (V mF c main_v6 : S728x600.Idx → Elt F .bf16) (ix2 a b) := by
  obtain ⟨-, -, -, ⟨e0, e1⟩, -, -, -, -, -⟩ := idx_in t
  unfold iblk
  rw [View.read_apply]
  show V mF c main_v6 _ = V mF c main_v6 _
  refine congrArg (V mF c main_v6 : S728x600.Idx → Elt F .bf16) (funext fun k => Fin.ext ?_)
  match k with
  | ⟨0, _⟩ => show win0_3.index t (0 : Fin 2) * 728 + 1 * a.val = a.val; omega
  | ⟨1, _⟩ => show win0_3.index t (1 : Fin 2) * 600 + 1 * b.val = b.val; omega
/-- Window 4 is its whole array at every point: its block read at (a, b) is the array at (a, b). -/
theorem iblk4_at (c : Dev nD) (t : Fin cfg0.N) (a : Fin 1) (b : Fin 728) :
    (iblk mF c 4 t : Vec F S1x728 .f32) (ix2 a b) = (V mF c main_v8 : S1x728.Idx → Elt F .f32) (ix2 a b) := by
  obtain ⟨-, -, -, -, ⟨e0, e1⟩, -, -, -, -⟩ := idx_in t
  unfold iblk
  rw [View.read_apply]
  show V mF c main_v8 _ = V mF c main_v8 _
  refine congrArg (V mF c main_v8 : S1x728.Idx → Elt F .f32) (funext fun k => Fin.ext ?_)
  match k with
  | ⟨0, _⟩ => show win0_4.index t (0 : Fin 2) * 1 + 1 * a.val = a.val; omega
  | ⟨1, _⟩ => show win0_4.index t (1 : Fin 2) * 728 + 1 * b.val = b.val; omega
/-- Window 5 is its whole array at every point: its block read at (a, b) is the array at (a, b). -/
theorem iblk5_at (c : Dev nD) (t : Fin cfg0.N) (a : Fin 200) (b : Fin 600) :
    (iblk mF c 5 t : Vec F S200x600 .f32) (ix2 a b) = (V mF c main_arg9 : S200x600.Idx → Elt F .f32) (ix2 a b) := by
  obtain ⟨-, -, -, -, -, ⟨e0, e1⟩, -, -, -⟩ := idx_in t
  unfold iblk
  rw [View.read_apply]
  show V mF c main_arg9 _ = V mF c main_arg9 _
  refine congrArg (V mF c main_arg9 : S200x600.Idx → Elt F .f32) (funext fun k => Fin.ext ?_)
  match k with
  | ⟨0, _⟩ => show win0_5.index t (0 : Fin 2) * 200 + 1 * a.val = a.val; omega
  | ⟨1, _⟩ => show win0_5.index t (1 : Fin 2) * 600 + 1 * b.val = b.val; omega
/-- Window 6 is its whole array at every point: its block read at (a, b) is the array at (a, b). -/
theorem iblk6_at (c : Dev nD) (t : Fin cfg0.N) (a : Fin 1) (b : Fin 200) :
    (iblk mF c 6 t : Vec F S1x200 .f32) (ix2 a b) = (V mF c main_v10 : S1x200.Idx → Elt F .f32) (ix2 a b) := by
  obtain ⟨-, -, -, -, -, -, ⟨e0, e1⟩, -, -⟩ := idx_in t
  unfold iblk
  rw [View.read_apply]
  show V mF c main_v10 _ = V mF c main_v10 _
  refine congrArg (V mF c main_v10 : S1x200.Idx → Elt F .f32) (funext fun k => Fin.ext ?_)
  match k with
  | ⟨0, _⟩ => show win0_6.index t (0 : Fin 2) * 1 + 1 * a.val = a.val; omega
  | ⟨1, _⟩ => show win0_6.index t (1 : Fin 2) * 200 + 1 * b.val = b.val; omega
/-- Window 7 is its whole array at every point: its block read at (a, b) is the array at (a, b). -/
theorem iblk7_at (c : Dev nD) (t : Fin cfg0.N) (a : Fin 10) (b : Fin 200) :
    (iblk mF c 7 t : Vec F S10x200 .f32) (ix2 a b) = (V mF c main_arg11 : S10x200.Idx → Elt F .f32) (ix2 a b) := by
  obtain ⟨-, -, -, -, -, -, -, ⟨e0, e1⟩, -⟩ := idx_in t
  unfold iblk
  rw [View.read_apply]
  show V mF c main_arg11 _ = V mF c main_arg11 _
  refine congrArg (V mF c main_arg11 : S10x200.Idx → Elt F .f32) (funext fun k => Fin.ext ?_)
  match k with
  | ⟨0, _⟩ => show win0_7.index t (0 : Fin 2) * 10 + 1 * a.val = a.val; omega
  | ⟨1, _⟩ => show win0_7.index t (1 : Fin 2) * 200 + 1 * b.val = b.val; omega
/-- Window 8 is its whole array at every point: its block read at (a, b) is the array at (a, b). -/
theorem iblk8_at (c : Dev nD) (t : Fin cfg0.N) (a : Fin 1) (b : Fin 10) :
    (iblk mF c 8 t : Vec F S1x10 .f32) (ix2 a b) = (V mF c main_v11 : S1x10.Idx → Elt F .f32) (ix2 a b) := by
  obtain ⟨-, -, -, -, -, -, -, -, ⟨e0, e1⟩⟩ := idx_in t
  unfold iblk
  rw [View.read_apply]
  show V mF c main_v11 _ = V mF c main_v11 _
  refine congrArg (V mF c main_v11 : S1x10.Idx → Elt F .f32) (funext fun k => Fin.ext ?_)
  match k with
  | ⟨0, _⟩ => show win0_8.index t (0 : Fin 2) * 1 + 1 * a.val = a.val; omega
  | ⟨1, _⟩ => show win0_8.index t (1 : Fin 2) * 10 + 1 * b.val = b.val; omega

end AnyFloats

/-- At point `t` the nine blocks hold batch `t`, the rescaled first weights, and the other weights and biases of
    `PK m c`, in the layout the body's arithmetic reads them. -/
theorem blocks_at (c : Dev nD) (t : Fin cfg0.N) :
    Cert.KerSpec.Blocks (PK m c) (Cert.Spec.batch (m ((c.tc : Thread nD τ).loc main_arg0)) (bOf t))
      (iblk m c 0 t) (iblk m c 1 t) (iblk m c 2 t) (iblk m c 3 t) (iblk m c 4 t) (iblk m c 5 t) (iblk m c 6 t) (iblk m c 7 t) (iblk m c 8 t) where
  h0 s i := iblk0_at m c t s i
  h1 o i := (iblk1_at m c t o i).trans (v4_at m c o i)
  h2 o := (iblk2_at m c t 0 o).trans (v9_at m c o)
  h3q q d j hj := (iblk3_at m c t j d).trans (v6_q m c q d j hj)
  h3k q d j hj := (iblk3_at m c t j d).trans (v6_k m c q d j hj)
  h3v v d j hj := (iblk3_at m c t j d).trans (v6_v m c v d j hj)
  h4q q j hj := (iblk4_at m c t 0 j).trans (v8_q m c q j hj)
  h4k q j hj := (iblk4_at m c t 0 j).trans (v8_k m c q j hj)
  h4v v j hj := (iblk4_at m c t 0 j).trans (v8_v m c v j hj)
  h5 h d := (iblk5_at m c t h d).trans (congrFun (V_main_arg9 m c) _)
  h6 h := (iblk6_at m c t 0 h).trans (v10_at m c h)
  h7 o h := (iblk7_at m c t o h).trans (congrFun (V_main_arg11 m c) _)
  h8 o := (iblk8_at m c t 0 o).trans (v11_at m c o)

end Cert.KernelIdeal.Val

end
-- ==== Proof.IdealValue.lean ====
import proofs.«146510_j26671746908706_2_alg».proof.Proof.IdealValueRun
import proofs.«146510_j26671746908706_2_alg».proof.Proof.IdealValueBlocks

/-!
  The idealized kernel's run at the specification: at every grid point the nine loaded blocks hold batch t's matrix and
  the weights (the input scale already in the embedding weights, the three projections stacked), so the blocks written
  back are the specification's, and the two result arrays end at its two whole-array functions of the arguments.
-/

noncomputable section

namespace Cert.KernelIdeal.Val

open Cert.KernelIdeal Cert.KernelIdeal.Gen Cert.KernelIdeal.Fr
open Idealize.ShloMosaic Idealize.ShloMosaic.TcCoe Idealize.SL.Sem
open Cert.Spec

/-- Every execution of the idealized kernel ends with the two result arrays at the specification's results of the
    arguments, and the arguments as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12_0) = outSpk (PK m c) (m ((c.tc : Thread nD τ).loc main_arg0))
      ∧ r.2.mem ((c.tc : Thread nD τ).loc main_v12_1) = outMem (PK m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  run_of m ρ (fun c t => blocks_at m c t)

end Cert.KernelIdeal.Val

end
-- ==== Proof.RefSpecA.lean ====
/-
  The reference program computes the specification, part 1: the embedding, the first spike layer and the three
  projections, each read at explicit coordinates (batch b, position s, feature).
-/
import proofs.«146510_j26671746908706_2_alg».proof.Proof.Gen.ReferenceIdeal.Read
import proofs.«146510_j26671746908706_2_alg».proof.Proof.Spec

noncomputable section

open scoped BigOperators

namespace Cert.RefSpec

open Cert.ReferenceIdeal Cert.ReferenceIdeal.Read Idealize.ShloMosaic Idealize.ShloMosaic.ValueIdx

/-- An f32 argument array at the ideal instance: a function from the shape's indices to the extended reals. -/
abbrev Arr (s : Shape) : Type := (⟨s, .f32⟩ : BufTy).Contents (Elt Ideal)

/-- The specification's parameters read off the reference's arguments; the scale is the reference's own scalar
    (1/255 or 1), kept as one unopened term. -/
def P (x0 : Arr S64x512x784) (x1 : Arr S600x784) (x2 : Arr S600) (x3 : Arr S64x600) (x4 : Arr S64)
    (x5 : Arr S64x600) (x6 : Arr S64) (x7 : Arr S600x600) (x8 : Arr S600) (x9 : Arr S200x600) (x10 : Arr S200)
    (x11 : Arr S10x200) (x12 : Arr S10) : Cert.Spec.Params :=
  Cert.Spec.paramsOf (val_main_v3 (F := Ideal) x0 ValueIdx.ix0) x1 x2 x3 x4 x5 x6 x7 x8 x9 x10 x11 x12

variable (x0 : Arr S64x512x784) (x1 : Arr S600x784) (x2 : Arr S600) (x3 : Arr S64x600) (x4 : Arr S64)
    (x5 : Arr S64x600) (x6 : Arr S64) (x7 : Arr S600x600) (x8 : Arr S600) (x9 : Arr S200x600) (x10 : Arr S200)
    (x11 : Arr S10x200) (x12 : Arr S10)

/-- Two index functions are equal when they agree at each of the (at most three) axes. -/
macro "idxeq3" : tactic => `(tactic| exact funext fun a => by match a with | ⟨0, _⟩ => rfl | ⟨1, _⟩ => rfl | ⟨2, _⟩ => rfl)
macro "idxeq2" : tactic => `(tactic| exact funext fun a => by match a with | ⟨0, _⟩ => rfl | ⟨1, _⟩ => rfl)
macro "idxeq1" : tactic => `(tactic| exact funext fun a => by match a with | ⟨0, _⟩ => rfl)

/-- embed(s,o) = Σ_i (x(b,s,i) · sc) · We(o,i) + be(o); the scale moves onto the weight by associativity and
    commutativity of the product. -/
theorem embed_at (b : Fin 64) (s : Fin 512) (o : Fin 600) :
    val_main_v9 (F := Ideal) x0 x1 x2 (ix3 b s o)
      = Cert.Spec.embed (P x0 x1 x2 x3 x4 x5 x6 x7 x8 x9 x10 x11 x12) (Cert.Spec.batch x0 b) s o := by
  rw [val_main_v9_apply, val_main_v6_apply, val_main_v8_apply, val_main_v7_apply, Ideal.addf_def]
  unfold Cert.Spec.embed
  refine congrArg₂ (· + ·) (Finset.sum_congr rfl fun k _ => ?_) ?_
  · rw [val_main_v5_apply, val_main_v4_apply]
    have el : lidx_main_v6 (ix3 b s o) k = ix3 b s k :=
      funext fun a => by match a with | ⟨0, _⟩ => rfl | ⟨1, _⟩ => rfl | ⟨2, _⟩ => rfl
    have er : ridx_main_v6 (ix3 b s o) k = ix2 o k :=
      funext fun a => by match a with | ⟨0, _⟩ => rfl | ⟨1, _⟩ => rfl
    rw [el, er]
    rw [Ideal.mulf_def]
    unfold Cert.Spec.batch P Cert.Spec.paramsOf
    dsimp only
    exact (mul_assoc _ _ _).trans (congrArg _ (mul_comm _ _))
  · have e : idx_main_v7 (idx_main_v8 (ix3 b s o)) = ix1 o :=
      funext fun a => by match a with | ⟨0, _⟩ => rfl
    rw [e]; rfl

/-- The first spike layer: the comparison's bit against 1/2, read as a number. -/
theorem spk1_at (b : Fin 64) (s : Fin 512) (d : Fin 600) :
    val_main_v12 (F := Ideal) x0 x1 x2 (ix3 b s d)
      = Cert.Spec.spk1 (P x0 x1 x2 x3 x4 x5 x6 x7 x8 x9 x10 x11 x12) (Cert.Spec.batch x0 b) s d := by
  rw [val_main_v12_apply, val_main_v11_apply, val_main_v10_apply, val_main_cst_3_apply,
    embed_at x0 x1 x2 x3 x4 x5 x6 x7 x8 x9 x10 x11 x12 b s d]
  unfold Cert.Spec.spk1
  exact Cert.Spec.ind_unsigned _ _

/-- Q(s,q) = Σ_d spk1(s,d) · Wq(q,d) + bq(q). -/
theorem q_at (b : Fin 64) (s : Fin 512) (q : Fin 64) :
    val_main_v19 (F := Ideal) x0 x1 x2 x3 x4 (ix3 b s q)
      = Cert.Spec.Q (P x0 x1 x2 x3 x4 x5 x6 x7 x8 x9 x10 x11 x12) (Cert.Spec.batch x0 b) s q := by
  rw [val_main_v19_apply, val_main_v16_apply, val_main_v18_apply, val_main_v17_apply, Ideal.addf_def]
  unfold Cert.Spec.Q
  refine congrArg₂ (· + ·) (Finset.sum_congr rfl fun k _ => ?_) ?_
  · have el : lidx_main_v16 (ix3 b s q) k = ix3 b s k := by idxeq3
    have er : ridx_main_v16 (ix3 b s q) k = ix2 q k := by idxeq2
    rw [el, er, spk1_at x0 x1 x2 x3 x4 x5 x6 x7 x8 x9 x10 x11 x12 b s k]; rfl
  · have e : idx_main_v17 (idx_main_v18 (ix3 b s q)) = ix1 q := by idxeq1
    rw [e]; rfl

/-- K(s,q) = Σ_d spk1(s,d) · Wk(q,d) + bk(q). -/
theorem k_at (b : Fin 64) (s : Fin 512) (q : Fin 64) :
    val_main_v23 (F := Ideal) x0 x1 x2 x5 x6 (ix3 b s q)
      = Cert.Spec.K (P x0 x1 x2 x3 x4 x5 x6 x7 x8 x9 x10 x11 x12) (Cert.Spec.batch x0 b) s q := by
  rw [val_main_v23_apply, val_main_v20_apply, val_main_v22_apply, val_main_v21_apply, Ideal.addf_def]
  unfold Cert.Spec.K
  refine congrArg₂ (· + ·) (Finset.sum_congr rfl fun k _ => ?_) ?_
  · have el : lidx_main_v20 (ix3 b s q) k = ix3 b s k := by idxeq3
    have er : ridx_main_v20 (ix3 b s q) k = ix2 q k := by idxeq2
    rw [el, er, spk1_at x0 x1 x2 x3 x4 x5 x6 x7 x8 x9 x10 x11 x12 b s k]; rfl
  · have e : idx_main_v21 (idx_main_v22 (ix3 b s q)) = ix1 q := by idxeq1
    rw [e]; rfl

/-- V(s,v) = Σ_d spk1(s,d) · Wv(v,d) + bv(v). -/
theorem v_at (b : Fin 64) (s : Fin 512) (v : Fin 600) :
    val_main_v27 (F := Ideal) x0 x1 x2 x7 x8 (ix3 b s v)
      = Cert.Spec.V (P x0 x1 x2 x3 x4 x5 x6 x7 x8 x9 x10 x11 x12) (Cert.Spec.batch x0 b) s v := by
  rw [val_main_v27_apply, val_main_v24_apply, val_main_v26_apply, val_main_v25_apply, Ideal.addf_def]
  unfold Cert.Spec.V
  refine congrArg₂ (· + ·) (Finset.sum_congr rfl fun k _ => ?_) ?_
  · have el : lidx_main_v24 (ix3 b s v) k = ix3 b s k := by idxeq3
    have er : ridx_main_v24 (ix3 b s v) k = ix2 v k := by idxeq2
    rw [el, er, spk1_at x0 x1 x2 x3 x4 x5 x6 x7 x8 x9 x10 x11 x12 b s k]; rfl
  · have e : idx_main_v25 (idx_main_v26 (ix3 b s v)) = ix1 v := by idxeq1
    rw [e]; rfl

end Cert.RefSpec

end
-- ==== Proof.RefSpecConst.lean ====
/-
  The float words the reference spells, as the extended reals they denote, and the one equation of constants the
  score needs: 1 / sqrt 64 is the word of 1/8.
-/
import proofs.«146510_j26671746908706_2_alg».proof.Proof.Spec
import Idealize.ShloMosaic.PureOps.Ideal.Laws

noncomputable section

namespace Cert.RefSpec

open Idealize.ShloMosaic

/-- The word of 1.0 denotes 1. -/
theorem ofBits_one : Ideal.ofBits .f32 0x3F800000#32 = 1 := by
  simp [Ideal.ofBits, Ideal.ieee, -EReal.coe_mul]; norm_num

/-- The word of 64.0 denotes the real 64. -/
theorem ofBits_64 : Ideal.ofBits .f32 0x42800000#32 = ((64 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of -inf denotes the bottom element. -/
theorem ofBits_neg_inf : Ideal.ofBits .f32 0xFF800000#32 = ⊥ := by
  simp [Ideal.ofBits, Ideal.ieee]

/-- 1 / sqrt 64 = 1/8: the square root of 64 is 8, and a quotient by a nonzero real is the product with its inverse. -/
theorem one_div_sqrt_64 :
    Ideal.div (Ideal.ofBits .f32 0x3F800000#32) (Ideal.sqrt (Ideal.ofBits .f32 0x42800000#32)) = Cert.Spec.eighth := by
  unfold Cert.Spec.eighth
  have h8 : Real.sqrt 64 = 8 := by
    rw [show (64 : ℝ) = 8 ^ 2 by norm_num]; exact Real.sqrt_sq (by norm_num)
  rw [ofBits_one, ofBits_64, ofBits_eighth, Ideal.sqrt_coe, if_neg (by norm_num), h8,
    Ideal.div_coe (by norm_num : (8 : ℝ) ≠ 0), one_mul]

end Cert.RefSpec

end
-- ==== Proof.RefSpecB.lean ====
/-
  The reference program computes the specification, part 2: the scaled scores, the row maximum, and the softmax
  (exponentials, row sums, quotients), each read at explicit coordinates.
-/
import proofs.«146510_j26671746908706_2_alg».proof.Proof.RefSpecA
import proofs.«146510_j26671746908706_2_alg».proof.Proof.RefSpecConst

noncomputable section

open scoped BigOperators

namespace Cert.RefSpec

open Cert.ReferenceIdeal Cert.ReferenceIdeal.Read Idealize.ShloMosaic Idealize.ShloMosaic.ValueIdx

variable (x0 : Arr S64x512x784) (x1 : Arr S600x784) (x2 : Arr S600) (x3 : Arr S64x600) (x4 : Arr S64)
    (x5 : Arr S64x600) (x6 : Arr S64) (x7 : Arr S600x600) (x8 : Arr S600) (x9 : Arr S200x600) (x10 : Arr S200)
    (x11 : Arr S10x200) (x12 : Arr S10)

/-- score(s,t) = (Σ_q Q(s,q) · K(t,q)) · (1/8): the contraction runs over the feature axis of both operands within
    one batch, and the factor 1 / sqrt 64 is the word of 1/8. -/
theorem score_at (b : Fin 64) (s t : Fin 512) :
    val_main_v32 (F := Ideal) x0 x1 x2 x3 x4 x5 x6 (ix3 b s t) = Cert.Spec.score (P x0 x1 x2 x3 x4 x5 x6 x7 x8 x9 x10 x11 x12) (Cert.Spec.batch x0 b) s t := by
  rw [val_main_v32_apply, val_main_v30_apply, val_main_v31_apply, val_main_v29_apply, val_main_v28_apply,
    val_main_cst_6_apply, val_main_cst_5_apply, Ideal.mulf_def, Ideal.hostDivf_def, Ideal.hostUnary_sqrt_def,
    Ideal.ofBits_def, Ideal.ofBits_def, one_div_sqrt_64]
  unfold Cert.Spec.score
  refine congrArg (· * Cert.Spec.eighth) (Finset.sum_congr rfl fun k _ => ?_)
  have el : lidx_main_v30 (ix3 b s t) k = ix3 b s k := by idxeq3
  have er : ridx_main_v30 (ix3 b s t) k = ix3 b t k := by idxeq3
  rw [el, er, q_at x0 x1 x2 x3 x4 x5 x6 x7 x8 x9 x10 x11 x12 b s k, k_at x0 x1 x2 x3 x4 x5 x6 x7 x8 x9 x10 x11 x12 b t k]

/-- A fold of the ideal maximum from the bottom element is the fold of max, term by term. -/
theorem fold_maximumf_eq {n : Nat} (f g : Fin n → EReal) (h : ∀ k, f k = g k) :
    (Finset.univ : Finset (Fin n)).fold (FloatOps.maximumf (F := Ideal) (φ := .f32)) ⊥ f
      = (Finset.univ : Finset (Fin n)).fold max ⊥ g := by
  have e : f = g := funext h
  subst e; rfl

/-- The row maximum: the reduction over the last axis from -inf is the fold of max from the bottom element over that
    axis's coordinates, and the further maximum with -inf changes nothing. -/
theorem rowmax_at (b : Fin 64) (s : Fin 512) :
    val_main_v35 (F := Ideal) x0 x1 x2 x3 x4 x5 x6 (ix2 b s) = Cert.Spec.rowMax (P x0 x1 x2 x3 x4 x5 x6 x7 x8 x9 x10 x11 x12) (Cert.Spec.batch x0 b) s := by
  have hR : S64x512x512.Reduces [2] S64x512 := by decide
  rw [val_main_v35_apply, val_main_v34_apply, val_main_cst_8_apply, Ideal.maximumf_def, Ideal.ofBits_def,
    ofBits_neg_inf, max_eq_right bot_le]
  unfold val_main_v33
  rw [Host.reduce_eq_fold_single FloatOps.maximumf _ _ Gen.reducesTo_S64x512x512_S64x512_d2 hR Gen.h_S_ (ix2 b s),
    val_main_cst_7_apply, Ideal.ofBits_def, ofBits_neg_inf]
  unfold Cert.Spec.rowMax
  refine fold_maximumf_eq (n := 512) _ _ fun k => ?_
  have e : hR.lift (ix2 b s) k = ix3 b s k :=
    funext fun a => Fin.ext (by match a with | ⟨0, _⟩ => rfl | ⟨1, _⟩ => rfl | ⟨2, _⟩ => rfl)
  exact (congrArg (val_main_v32 (F := Ideal) x0 x1 x2 x3 x4 x5 x6) e).trans (score_at x0 x1 x2 x3 x4 x5 x6 x7 x8 x9 x10 x11 x12 b s k)

/-- ex(s,t) = exp(score(s,t) − rowMax(s)). -/
theorem ex_at (b : Fin 64) (s t : Fin 512) :
    val_main_v39 (F := Ideal) x0 x1 x2 x3 x4 x5 x6 (ix3 b s t) = Cert.Spec.ex (P x0 x1 x2 x3 x4 x5 x6 x7 x8 x9 x10 x11 x12) (Cert.Spec.batch x0 b) s t := by
  have e : idx_main_v36 (idx_main_v37 (ix3 b s t)) = ix2 b s := by idxeq2
  rw [val_main_v39_apply, val_main_v38_apply, val_main_v37_apply, val_main_v36_apply, Ideal.hostUnary_exp_def,
    Ideal.subf_def, e, score_at x0 x1 x2 x3 x4 x5 x6 x7 x8 x9 x10 x11 x12 b s t, rowmax_at x0 x1 x2 x3 x4 x5 x6 x7 x8 x9 x10 x11 x12 b s]
  rfl

/-- rowSum(s) = Σ_t ex(s,t): the host sum starts from the zero word. -/
theorem rowsum_at (b : Fin 64) (s : Fin 512) :
    val_main_v40 (F := Ideal) x0 x1 x2 x3 x4 x5 x6 (ix2 b s) = Cert.Spec.rowSum (P x0 x1 x2 x3 x4 x5 x6 x7 x8 x9 x10 x11 x12) (Cert.Spec.batch x0 b) s := by
  rw [val_main_v40_apply, val_main_cst_9_apply, Ideal.ofBits_def, Ideal.ofBits_zero_f32, zero_add]
  unfold Cert.Spec.rowSum
  refine Finset.sum_congr rfl fun k _ => ?_
  have e : idx_main_v40 (ix2 b s) k = ix3 b s k := by idxeq3
  rw [e, ex_at x0 x1 x2 x3 x4 x5 x6 x7 x8 x9 x10 x11 x12 b s k]

/-- attn(s,t) = ex(s,t) / rowSum(s). -/
theorem attn_at (b : Fin 64) (s t : Fin 512) :
    val_main_v43 (F := Ideal) x0 x1 x2 x3 x4 x5 x6 (ix3 b s t) = Cert.Spec.attn (P x0 x1 x2 x3 x4 x5 x6 x7 x8 x9 x10 x11 x12) (Cert.Spec.batch x0 b) s t := by
  have e : idx_main_v41 (idx_main_v42 (ix3 b s t)) = ix2 b s := by idxeq2
  rw [val_main_v43_apply, val_main_v42_apply, val_main_v41_apply, Ideal.hostDivf_def, e,
    ex_at x0 x1 x2 x3 x4 x5 x6 x7 x8 x9 x10 x11 x12 b s t, rowsum_at x0 x1 x2 x3 x4 x5 x6 x7 x8 x9 x10 x11 x12 b s]
  rfl

end Cert.RefSpec

end
-- ==== Proof.RefSpecC.lean ====
/-
  The reference program computes the specification, part 3: the attention output with the residual spikes, the two
  affine layers with their thresholds at 3/10, the membrane after the reset, and the two whole-array results.
-/
import proofs.«146510_j26671746908706_2_alg».proof.Proof.RefSpecB

noncomputable section

open scoped BigOperators

namespace Cert.RefSpec

open Cert.ReferenceIdeal Cert.ReferenceIdeal.Read Idealize.ShloMosaic Idealize.ShloMosaic.ValueIdx

variable (x0 : Arr S64x512x784) (x1 : Arr S600x784) (x2 : Arr S600) (x3 : Arr S64x600) (x4 : Arr S64)
    (x5 : Arr S64x600) (x6 : Arr S64) (x7 : Arr S600x600) (x8 : Arr S600) (x9 : Arr S200x600) (x10 : Arr S200)
    (x11 : Arr S10x200) (x12 : Arr S10)

/-- in2(s,d) = Σ_t attn(s,t) · V(t,d) + spk1(s,d): the contraction runs over positions within one batch. -/
theorem in2_at (b : Fin 64) (s : Fin 512) (d : Fin 600) :
    val_main_v45 (F := Ideal) x0 x1 x2 x3 x4 x5 x6 x7 x8 (ix3 b s d) = Cert.Spec.in2 (P x0 x1 x2 x3 x4 x5 x6 x7 x8 x9 x10 x11 x12) (Cert.Spec.batch x0 b) s d := by
  rw [val_main_v45_apply, val_main_v44_apply, Ideal.addf_def]
  unfold Cert.Spec.in2
  refine congrArg₂ (· + ·) (Finset.sum_congr rfl fun k _ => ?_) (spk1_at x0 x1 x2 x3 x4 x5 x6 x7 x8 x9 x10 x11 x12 b s d)
  have el : lidx_main_v44 (ix3 b s d) k = ix3 b s k := by idxeq3
  have er : ridx_main_v44 (ix3 b s d) k = ix3 b k d := by idxeq3
  rw [el, er, attn_at x0 x1 x2 x3 x4 x5 x6 x7 x8 x9 x10 x11 x12 b s k, v_at x0 x1 x2 x3 x4 x5 x6 x7 x8 x9 x10 x11 x12 b k d]

/-- cur2(s,h) = Σ_d in2(s,d) · W2(h,d) + b2(h). -/
theorem cur2_at (b : Fin 64) (s : Fin 512) (h : Fin 200) :
    val_main_v49 (F := Ideal) x0 x1 x2 x3 x4 x5 x6 x7 x8 x9 x10 (ix3 b s h) = Cert.Spec.cur2 (P x0 x1 x2 x3 x4 x5 x6 x7 x8 x9 x10 x11 x12) (Cert.Spec.batch x0 b) s h := by
  rw [val_main_v49_apply, val_main_v46_apply, val_main_v48_apply, val_main_v47_apply, Ideal.addf_def]
  unfold Cert.Spec.cur2
  refine congrArg₂ (· + ·) (Finset.sum_congr rfl fun k _ => ?_) ?_
  · have el : lidx_main_v46 (ix3 b s h) k = ix3 b s k := by idxeq3
    have er : ridx_main_v46 (ix3 b s h) k = ix2 h k := by idxeq2
    rw [el, er, in2_at x0 x1 x2 x3 x4 x5 x6 x7 x8 x9 x10 x11 x12 b s k]; rfl
  · have e : idx_main_v47 (idx_main_v48 (ix3 b s h)) = ix1 h := by idxeq1
    rw [e]; rfl

/-- The second spike layer: the comparison's bit against 3/10, read as a number. -/
theorem spk2_at (b : Fin 64) (s : Fin 512) (h : Fin 200) :
    val_main_v52 (F := Ideal) x0 x1 x2 x3 x4 x5 x6 x7 x8 x9 x10 (ix3 b s h) = Cert.Spec.spk2 (P x0 x1 x2 x3 x4 x5 x6 x7 x8 x9 x10 x11 x12) (Cert.Spec.batch x0 b) s h := by
  rw [val_main_v52_apply, val_main_v51_apply, val_main_v50_apply, val_main_cst_10_apply,
    cur2_at x0 x1 x2 x3 x4 x5 x6 x7 x8 x9 x10 x11 x12 b s h]
  unfold Cert.Spec.spk2
  exact Cert.Spec.ind_unsigned _ _

/-- cur3(s,o) = Σ_h spk2(s,h) · W3(o,h) + b3(o). -/
theorem cur3_at (b : Fin 64) (s : Fin 512) (o : Fin 10) :
    val_main_v59 (F := Ideal) x0 x1 x2 x3 x4 x5 x6 x7 x8 x9 x10 x11 x12 (ix3 b s o) = Cert.Spec.cur3 (P x0 x1 x2 x3 x4 x5 x6 x7 x8 x9 x10 x11 x12) (Cert.Spec.batch x0 b) s o := by
  rw [val_main_v59_apply, val_main_v56_apply, val_main_v58_apply, val_main_v57_apply, Ideal.addf_def]
  unfold Cert.Spec.cur3
  refine congrArg₂ (· + ·) (Finset.sum_congr rfl fun k _ => ?_) ?_
  · have el : lidx_main_v56 (ix3 b s o) k = ix3 b s k := by idxeq3
    have er : ridx_main_v56 (ix3 b s o) k = ix2 o k := by idxeq2
    rw [el, er, spk2_at x0 x1 x2 x3 x4 x5 x6 x7 x8 x9 x10 x11 x12 b s k]; rfl
  · have e : idx_main_v57 (idx_main_v58 (ix3 b s o)) = ix1 o := by idxeq1
    rw [e]; rfl

/-- The last spike layer. -/
theorem spk3_at (b : Fin 64) (s : Fin 512) (o : Fin 10) :
    val_main_v62 (F := Ideal) x0 x1 x2 x3 x4 x5 x6 x7 x8 x9 x10 x11 x12 (ix3 b s o) = Cert.Spec.spk3 (P x0 x1 x2 x3 x4 x5 x6 x7 x8 x9 x10 x11 x12) (Cert.Spec.batch x0 b) s o := by
  rw [val_main_v62_apply, val_main_v61_apply, val_main_v60_apply, val_main_cst_12_apply,
    cur3_at x0 x1 x2 x3 x4 x5 x6 x7 x8 x9 x10 x11 x12 b s o]
  unfold Cert.Spec.spk3
  exact Cert.Spec.ind_unsigned _ _

/-- The membrane after the reset: cur3 − spk3 · (3/10). -/
theorem mem3_at (b : Fin 64) (s : Fin 512) (o : Fin 10) :
    val_main_v65 (F := Ideal) x0 x1 x2 x3 x4 x5 x6 x7 x8 x9 x10 x11 x12 (ix3 b s o) = Cert.Spec.mem3 (P x0 x1 x2 x3 x4 x5 x6 x7 x8 x9 x10 x11 x12) (Cert.Spec.batch x0 b) s o := by
  rw [val_main_v65_apply, val_main_v64_apply, val_main_v63_apply, val_main_cst_13_apply, Ideal.subf_def,
    Ideal.mulf_def, cur3_at x0 x1 x2 x3 x4 x5 x6 x7 x8 x9 x10 x11 x12 b s o, spk3_at x0 x1 x2 x3 x4 x5 x6 x7 x8 x9 x10 x11 x12 b s o]
  rfl

/-- The reference's first result is the specification's spikes of the last layer, as whole arrays. -/
theorem ref_spk :
    val_main_v62 (F := Ideal) x0 x1 x2 x3 x4 x5 x6 x7 x8 x9 x10 x11 x12
      = Cert.Spec.outSpk (Cert.Spec.paramsOf (val_main_v3 (F := Ideal) x0 ValueIdx.ix0)
          x1 x2 x3 x4 x5 x6 x7 x8 x9 x10 x11 x12) x0 := by
  funext j
  obtain ⟨b, s, o, rfl⟩ : ∃ b s o, j = ix3 b s o := ⟨j 0, j 1, j 2, ValueIdx.eq_ix3 j⟩
  exact spk3_at x0 x1 x2 x3 x4 x5 x6 x7 x8 x9 x10 x11 x12 b s o

/-- The reference's second result is the specification's membrane after the reset, as whole arrays. -/
theorem ref_mem :
    val_main_v65 (F := Ideal) x0 x1 x2 x3 x4 x5 x6 x7 x8 x9 x10 x11 x12
      = Cert.Spec.outMem (Cert.Spec.paramsOf (val_main_v3 (F := Ideal) x0 ValueIdx.ix0)
          x1 x2 x3 x4 x5 x6 x7 x8 x9 x10 x11 x12) x0 := by
  funext j
  obtain ⟨b, s, o, rfl⟩ : ∃ b s o, j = ix3 b s o := ⟨j 0, j 1, j 2, ValueIdx.eq_ix3 j⟩
  exact mem3_at x0 x1 x2 x3 x4 x5 x6 x7 x8 x9 x10 x11 x12 b s o

end Cert.RefSpec

end
-- ==== Proof.lean ====
/-
  Two programs for one network, equal on the extended reals.

  The network maps a batch of 512 rows of 784 numbers through an affine map into 600 units that fire when above 1/2, lets the
  resulting 0/1 rows attend to each other (queries, keys and values by three affine maps; scores Q·Kᵀ/8; a softmax
  along each row; the attended values added to the spikes), and then through two more affine-then-threshold layers
  (threshold 3/10) of 200 and 10 units; it returns the last layer's spikes and its membrane after the reset,
  cur − spike · (3/10). The input is first multiplied by 1/255 if its largest entry exceeds 1.

  The kernel runs one batch per grid point: the scale is folded into the embedding weights on the host
  (x·(We·sc)ᵀ in place of (x·sc)·Weᵀ — equal entry by entry, multiplication of extended reals being associative and
  commutative), the three projections are one product with the three weight matrices stacked (rows 0–63, 64–127,
  128–727 of the stack give Q, K, V back), and 1/8 is written as a float word where the reference computes 1/√64. The
  reference treats all 64 batches at once with batched products. Changes of float format are the identity on the
  extended reals, a product into a zero accumulator is the plain sum over the contraction index on both sides, and a
  row maximum or row sum is the same fold on both sides; so both results are one function of the arguments
  (Spec.outSpk, Spec.outMem), batch by batch and entry by entry. No law that needs finite entries is used: the
  finiteness precondition is never opened.

  The kernel's run (every execution ends, nothing faults, the arguments are kept, each result array holds the blocks the
  grid points wrote) is proved for the printed program at both instances; the reference's run is its generated run.
  The idealization rewrote nothing, so its conjunct is trivial.
-/
import proofs.«146510_j26671746908706_2_alg».proof.Defs
import proofs.«146510_j26671746908706_2_alg».proof.Proof.Gen.Kernel
import proofs.«146510_j26671746908706_2_alg».proof.Proof.Gen.KernelIdeal
import proofs.«146510_j26671746908706_2_alg».proof.Proof.Gen.ReferenceIdeal
import proofs.«146510_j26671746908706_2_alg».proof.Proof.Gen.Pre_finite_inputs
import proofs.«146510_j26671746908706_2_alg».proof.Proof.Gen.ReferenceIdeal.Run
import proofs.«146510_j26671746908706_2_alg».proof.Proof.Gen.ReferenceIdeal.Read
import proofs.«146510_j26671746908706_2_alg».proof.Proof.BitsFrame
import proofs.«146510_j26671746908706_2_alg».proof.Proof.IdealFrame
import proofs.«146510_j26671746908706_2_alg».proof.Proof.IdealValue
import proofs.«146510_j26671746908706_2_alg».proof.Proof.RefSpecC
import proofs.«146510_j26671746908706_2_alg».proof.Proof.Scale
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and keeps its arguments. -/
theorem frame_k : Cert.frame_Kernel := fun m ρ _ => Cert.Kernel.Fr.frame m ρ

/-- The idealized kernel runs and keeps its arguments. -/
theorem frame_ki : Cert.frame_KernelIdeal := fun m ρ _ => Cert.KernelIdeal.Fr.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's two arrays: the kernel's
    result arrays are the blocks its grid points wrote, each the specification on its batch; the reference's two
    last stages are the specification read batch by batch; and the two scales are one term. -/
theorem algebraic : Cert.algebraic_KernelIdeal_ReferenceIdeal := by
  intro m ρ m' ρ' _ hagree
  refine ⟨_, _, Cert.KernelIdeal.Val.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v62_eq, Cert.RefSpec.ref_spk,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2, Cert.KerScale.sc_eq]
    rfl
  · rw [(h c).2.1, Cert.ReferenceIdeal.Read.val_main_v65_eq, Cert.RefSpec.ref_mem,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2, Cert.KerScale.sc_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
